-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S12288 : Shape := ⟨1, ![12288]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel

variable [Facts]

def fn {F : FTy → Type} [FloatOps F] (main_arg0 : FVec F S12288x128 .f32) (main_arg1 : IVec S12288 32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  main_v3
-- ==== Kernel.lean ====
abbrev S12288x128 : Shape := ⟨2, ![12288, 128]⟩
abbrev S12288 : Shape := ⟨1, ![12288]⟩
abbrev S3x4096x128 : Shape := ⟨3, ![3, 4096, 128]⟩
abbrev S3x4096 : Shape := ⟨2, ![3, 4096]⟩
abbrev S3x4096x1 : Shape := ⟨3, ![3, 4096, 1]⟩
abbrev S3x1x4096 : Shape := ⟨3, ![3, 1, 4096]⟩
abbrev S1x256x128 : Shape := ⟨3, ![1, 256, 128]⟩
abbrev S1x4096x128 : Shape := ⟨3, ![1, 4096, 128]⟩
abbrev S1x256x1 : Shape := ⟨3, ![1, 256, 1]⟩
abbrev S1x1x4096 : Shape := ⟨3, ![1, 1, 4096]⟩
abbrev S256x4096 : Shape := ⟨2, ![256, 4096]⟩
abbrev S256x128 : Shape := ⟨2, ![256, 128]⟩
abbrev S4096x128 : Shape := ⟨2, ![4096, 128]⟩
abbrev S128x4096 : Shape := ⟨2, ![128, 4096]⟩
abbrev S256x1 : Shape := ⟨2, ![256, 1]⟩
abbrev S1x4096 : Shape := ⟨2, ![1, 4096]⟩
abbrev S256 : Shape := ⟨1, ![256]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S12288x128, .f32⟩
  | .hbm, ⟨1, _⟩ => ⟨S12288, .i32⟩
  | .hbm, ⟨2, _⟩ => ⟨S3x4096x128, .f32⟩
  | .hbm, ⟨3, _⟩ => ⟨S3x4096, .i32⟩
  | .hbm, ⟨4, _⟩ => ⟨S3x4096x1, .i32⟩
  | .hbm, ⟨5, _⟩ => ⟨S3x1x4096, .i32⟩
  | .hbm, ⟨6, _⟩ => ⟨S3x4096x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x256x128, .f32⟩
  | .local _ .vmem, ⟨1, _⟩ => ⟨S1x256x128, .f32⟩
  | .local _ .vmem, ⟨2, _⟩ => ⟨S1x4096x128, .f32⟩
  | .local _ .vmem, ⟨3, _⟩ => ⟨S1x4096x128, .f32⟩
  | .local _ .vmem, ⟨4, _⟩ => ⟨S1x256x1, .i32⟩
  | .local _ .vmem, ⟨5, _⟩ => ⟨S1x256x1, .i32⟩
  | .local _ .vmem, ⟨6, _⟩ => ⟨S1x1x4096, .i32⟩
  | .local _ .vmem, ⟨7, _⟩ => ⟨S1x1x4096, .i32⟩
  | .local _ .vmem, ⟨8, _⟩ => ⟨S1x256x1, .f32⟩
  | .local _ .vmem, ⟨9, _⟩ => ⟨S1x256x1, .f32⟩
  | .local _ .vmem, ⟨10, _⟩ => ⟨S256x4096, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S12288x128_S3x4096x128 : S12288x128.ShapeCasts S3x4096x128
  shapeCasts_S12288_S3x4096 : S12288.ShapeCasts S3x4096
  bcast_S3x4096_S3x4096x1_0_1 : S3x4096.BroadcastsInDim S3x4096x1 (![0, 1] : Fin 2 → Fin S3x4096x1.rank)
  bcast_S3x4096_S3x1x4096_0_2 : S3x4096.BroadcastsInDim S3x1x4096 (![0, 2] : Fin 2 → Fin S3x1x4096.rank)
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  transposes_S4096x128_p1_0_S128x4096 : S4096x128.Transposes [1, 0] S128x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S256x1_S256x4096 : S256x1.Broadcasts S256x4096
  broadcasts_S1x4096_S256x4096 : S1x4096.Broadcasts S256x4096
  iota_S256x4096_d0_w32 : S256x4096.Iotas .tc 32 [0]
  iota_S256x4096_d1_w32 : S256x4096.Iotas .tc 32 [1]
  reduces_S256x4096_S256 : S256x4096.Reduces [1] S256
  shapeCasts_S256_S256x1 : S256.ShapeCasts S256x1
  shapeCasts_S256x1_S1x256x1 : S256x1.ShapeCasts S1x256x1
  reducesTo_S3x4096x1_S_d0_1_2 : S3x4096x1.ReducesTo [0, 1, 2] S_
  h_S_ : 0 < S_.numel
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S3x4096x128.size a
  hwx0_0 : ∀ i : grid0.Coords, EltTy.bits .f32 = 32 ∨ (Rect.block (s := S3x4096x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S3x4096x128.size a
  hwx0_1 : ∀ i : grid0.Coords, EltTy.bits .f32 = 32 ∨ (Rect.block (s := S3x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S3x4096x1.size a
  hwx0_2 : ∀ i : grid0.Coords, EltTy.bits .i32 = 32 ∨ (Rect.block (s := S3x4096x1) S1x256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S3x1x4096.size a
  hwx0_3 : ∀ i : grid0.Coords, EltTy.bits .i32 = 32 ∨ (Rect.block (s := S3x1x4096) S1x1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S3x4096x1.size a
  hwx0_4 : ∀ i : grid0.Coords, EltTy.bits .f32 = 32 ∨ (Rect.block (s := S3x4096x1) S1x256x1.size (cc0_transform_4 i) (hinb0_4 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_v0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S12288x128 : Shape := ⟨2, ![12288, 128]⟩
abbrev S12288 : Shape := ⟨1, ![12288]⟩
abbrev S3x4096x128 : Shape := ⟨3, ![3, 4096, 128]⟩
abbrev S3x4096 : Shape := ⟨2, ![3, 4096]⟩
abbrev S3x128x4096 : Shape := ⟨3, ![3, 128, 4096]⟩
abbrev S3x4096x4096 : Shape := ⟨3, ![3, 4096, 4096]⟩
abbrev S3x4096x1 : Shape := ⟨3, ![3, 4096, 1]⟩
abbrev S3x1x4096 : Shape := ⟨3, ![3, 1, 4096]⟩
abbrev S4096x4096 : Shape := ⟨2, ![4096, 4096]⟩
abbrev S_ : Shape := ⟨0, ![]⟩
abbrev S1x4096x4096 : Shape := ⟨3, ![1, 4096, 4096]⟩
abbrev S4096 : Shape := ⟨1, ![4096]⟩
abbrev S3 : Shape := ⟨1, ![3]⟩

abbrev nBuf : Space → Nat
  | .hbm => 87
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S12288, .i32⟩
  | .hbm, ⟨2, _⟩ => ⟨S3x4096x128, .f32⟩
  | .hbm, ⟨3, _⟩ => ⟨S3x4096, .i32⟩
  | .hbm, ⟨4, _⟩ => ⟨S3x128x4096, .f32⟩
  | .hbm, ⟨5, _⟩ => ⟨S3x4096x4096, .f32⟩
  | .hbm, ⟨6, _⟩ => ⟨S3x4096x1, .i32⟩
  | .hbm, ⟨7, _⟩ => ⟨S3x1x4096, .i32⟩
  | .hbm, ⟨8, _⟩ => ⟨S3x4096x4096, .i32⟩
  | .hbm, ⟨9, _⟩ => ⟨S3x4096x4096, .i32⟩
  | .hbm, ⟨10, _⟩ => ⟨S3x4096x4096, .i1⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S4096x4096, .i1⟩
  | .hbm, ⟨18, _⟩ => ⟨S1x4096x4096, .i1⟩
  | .hbm, ⟨19, _⟩ => ⟨S3x4096x4096, .i1⟩
  | .hbm, ⟨20, _⟩ => ⟨S3x4096x4096, .i1⟩
  | .hbm, ⟨21, _⟩ => ⟨S3x4096x4096, .i1⟩
  | .hbm, ⟨22, _⟩ => ⟨S_, .f32⟩
  | .hbm, ⟨23, _⟩ => ⟨S_, .f32⟩
  | .hbm, ⟨24, _⟩ => ⟨S4096x4096, .f32⟩
  | .hbm, ⟨25, _⟩ => ⟨S3x4096x4096, .f32⟩
  | .hbm, ⟨26, _⟩ => ⟨S3x4096x4096, .f32⟩
  | .hbm, ⟨27, _⟩ => ⟨S_, .f32⟩
  | .hbm, ⟨28, _⟩ => ⟨S3x4096, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S3x4096x4096, .f32⟩
  | .hbm, ⟨33, _⟩ => ⟨S3x4096x4096, .f32⟩
  | .hbm, ⟨34, _⟩ => ⟨S_, .f32⟩
  | .hbm, ⟨35, _⟩ => ⟨S3x4096, .f32⟩
  | .hbm, ⟨36, _⟩ => ⟨S_, .f32⟩
  | .hbm, ⟨37, _⟩ => ⟨S3x4096, .f32⟩
  | .hbm, ⟨38, _⟩ => ⟨S3x4096, .f32⟩
  | .hbm, ⟨39, _⟩ => ⟨S3x4096x1, .f32⟩
  | .hbm, ⟨40, _⟩ => ⟨S3x4096x4096, .f32⟩
  | .hbm, ⟨41, _⟩ => ⟨S3x4096x4096, .i1⟩
  | .hbm, ⟨42, _⟩ => ⟨S3x4096x4096, .i1⟩
  | .hbm, ⟨43, _⟩ => ⟨S_, .f32⟩
  | .hbm, ⟨44, _⟩ => ⟨S3x4096x4096, .f32⟩
  | .hbm, ⟨45, _⟩ => ⟨S3x4096x4096, .f32⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S3x4096x4096, .f32⟩
  | .hbm, ⟨50, _⟩ => ⟨S3x4096x4096, .f32⟩
  | .hbm, ⟨51, _⟩ => ⟨S_, .f32⟩
  | .hbm, ⟨52, _⟩ => ⟨S3x4096, .f32⟩
  | .hbm, ⟨53, _⟩ => ⟨S_, .f32⟩
  | .hbm, ⟨54, _⟩ => ⟨S3x4096, .f32⟩
  | .hbm, ⟨55, _⟩ => ⟨S3x4096, .f32⟩
  | .hbm, ⟨56, _⟩ => ⟨S_, .f32⟩
  | .hbm, ⟨57, _⟩ => ⟨S3x4096, .f32⟩
  | .hbm, ⟨58, _⟩ => ⟨S3x4096, .f32⟩
  | .hbm, ⟨59, _⟩ => ⟨S3x4096x1, .f32⟩
  | .hbm, ⟨60, _⟩ => ⟨S3x4096x4096, .f32⟩
  | .hbm, ⟨61, _⟩ => ⟨S3x4096x4096, .i1⟩
  | .hbm, ⟨62, _⟩ => ⟨S3x4096x4096, .i1⟩
  | .hbm, ⟨63, _⟩ => ⟨S_, .f32⟩
  | .hbm, ⟨64, _⟩ => ⟨S_, .f32⟩
  | .hbm, ⟨65, _⟩ => ⟨S4096x4096, .f32⟩
  | .hbm, ⟨66, _⟩ => ⟨S3x4096x4096, .f32⟩
  | .hbm, ⟨67, _⟩ => ⟨S3x4096x4096, .f32⟩
  | .hbm, ⟨68, _⟩ => ⟨S_, .f32⟩
  | .hbm, ⟨69, _⟩ => ⟨S3x4096, .f32⟩
  | .hbm, ⟨70, _⟩ => ⟨S_, .i1⟩
  | .hbm, ⟨71, _⟩ => ⟨S3x4096, .i1⟩
  | .hbm, ⟨72, _⟩ => ⟨S3x4096, .f32⟩
  | .hbm, ⟨73, _⟩ => ⟨S_, .f32⟩
  | .hbm, ⟨74, _⟩ => ⟨S_, .f32⟩
  | .hbm, ⟨75, _⟩ => ⟨S4096, .f32⟩
  | .hbm, ⟨76, _⟩ => ⟨S3x4096, .f32⟩
  | .hbm, ⟨77, _⟩ => ⟨S3x4096, .f32⟩
  | .hbm, ⟨78, _⟩ => ⟨S_, .f32⟩
  | .hbm, ⟨79, _⟩ => ⟨S3, .f32⟩
  | .hbm, ⟨80, _⟩ => ⟨S_, .f32⟩
  | .hbm, ⟨81, _⟩ => ⟨S3, .f32⟩
  | .hbm, ⟨82, _⟩ => ⟨S3, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v45 : Ref sig .tc := ⟨.hbm, 77, rfl⟩
abbrev main_cst_13 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_cst_15 : Ref sig .tc := ⟨.hbm, 83, rfl⟩
abbrev main_v49 : Ref sig .tc := ⟨.hbm, 84, rfl⟩
abbrev main_cst_16 : Ref sig .tc := ⟨.hbm, 85, rfl⟩
abbrev main_v50 : Ref sig .tc := ⟨.hbm, 86, rfl⟩

abbrev nD : Nat := 1
abbrev τ : Topo := Topo.v7x

variable {F : FTy → Type} [FloatOps F]

class Facts₀ : Prop where
  shapeCasts_S12288x128_S3x4096x128 : S12288x128.ShapeCasts S3x4096x128
  shapeCasts_S12288_S3x4096 : S12288.ShapeCasts S3x4096
  transposes_S3x4096x128_S3x128x4096_0_2_1 : S3x4096x128.Transposes [0, 2, 1] S3x128x4096
  bcast_S3x4096_S3x4096x1_0_1 : S3x4096.BroadcastsInDim S3x4096x1 (![0, 1] : Fin 2 → Fin S3x4096x1.rank)
  bcast_S3x4096_S3x1x4096_0_2 : S3x4096.BroadcastsInDim S3x1x4096 (![0, 2] : Fin 2 → Fin S3x1x4096.rank)
  bcast_S3x4096x1_S3x4096x4096_0_1_2 : S3x4096x1.BroadcastsInDim S3x4096x4096 (![0, 1, 2] : Fin 3 → Fin S3x4096x4096.rank)
  bcast_S3x1x4096_S3x4096x4096_0_1_2 : S3x1x4096.BroadcastsInDim S3x4096x4096 (![0, 1, 2] : Fin 3 → Fin S3x4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S3x4096x4096_0_1_2 : S1x4096x4096.BroadcastsInDim S3x4096x4096 (![0, 1, 2] : Fin 3 → Fin S3x4096x4096.rank)
  bcast_S4096x4096_S3x4096x4096_1_2 : S4096x4096.BroadcastsInDim S3x4096x4096 (![1, 2] : Fin 2 → Fin S3x4096x4096.rank)
  reducesTo_S3x4096x4096_S3x4096_d2 : S3x4096x4096.ReducesTo [2] S3x4096
  h_S_ : 0 < S_.numel
  bcast_S_S3x4096 : S_.BroadcastsInDim S3x4096 (![] : Fin 0 → Fin S3x4096.rank)
  bcast_S_S3x4096x4096 : S_.BroadcastsInDim S3x4096x4096 (![] : Fin 0 → Fin S3x4096x4096.rank)
  bcast_S_S4096 : S_.BroadcastsInDim S4096 (![] : Fin 0 → Fin S4096.rank)
  bcast_S4096_S3x4096_1 : S4096.BroadcastsInDim S3x4096 (![1] : Fin 1 → Fin S3x4096.rank)
  reducesTo_S3x4096_S3_d1 : S3x4096.ReducesTo [1] S3
  bcast_S_S3 : S_.BroadcastsInDim S3 (![] : Fin 0 → Fin S3.rank)
  reducesTo_S3_S_d0 : S3.ReducesTo [0] S_
  dot_S3x4096x128_S3x128x4096_S3x4096x4096_2_1_1_2_0_0_wf : DotDims.WF S3x4096x128 S3x128x4096 S3x4096x4096 [2] [1] [1] [2] [0] [0]

variable [Facts₀]

def dot_S3x4096x128_S3x128x4096_S3x4096x4096_2_1_1_2_0_0 : DotDims S3x4096x128 S3x128x4096 S3x4096x4096 where
  lhsContracting := [2]
  rhsContracting := [1]
  lhsNonContracting := [1]
  rhsNonContracting := [2]
  lhsBatch := [0]
  rhsBatch := [0]
  wf := dot_S3x4096x128_S3x128x4096_S3x4096x4096_2_1_1_2_0_0_wf

class Facts : Prop extends Facts₀ where

variable [Facts]
-- ==== Proof.BBody.lean ====
/-
  The kernel's body at one grid point, and the proof data of its pipeline.

  At grid point (s, i) the pipeline hands the body four input blocks — the 256 query rows i·256 … i·256+255 of
  subset s, all 4096 rows of subset s (the same array, read through a second window), the query rows' labels as
  a column, and all the subset's labels as a row — and one output block, the 256 row losses. The body stores the
  256 × 4096 similarity block into its own scratch buffer, reads it back, and stores the row losses; nothing is
  kept from one point to the next, so the region invariant is only "the scratch buffer holds something".
  What the body leaves in the output block is recorded as the list of pieces its run finds.
-/
import proofs.«141028_j22084721836475_2_alg».proof.Proof.Gen.Kernel.Launch
import proofs.«141028_j22084721836475_2_alg».proof.Proof.Gen.Kernel.Skeleton
import proofs.«141028_j22084721836475_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s buffer contents after the four host operations before the region (two reshapes, two broadcasts). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body on any staging buffers -/

/-- One staging buffer of the output window, through which the block's contents are stated. -/
abbrev VO4 : View sig .tc .vmem S1x256x1 .f32 := (Memref.whole cc0_stg4_0 : Memref sig .tc .vmem S1x256x1 .f32).view
/-- The scratch buffer as a memref. -/
abbrev scM : Memref sig .tc .vmem S256x4096 .f32 := Memref.whole cc0_scratch0

/-- The region invariant: the scratch buffer owned at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

set_option maxHeartbeats 4000000 in
/-- The pieces the body's stores leave in the output block and in the scratch buffer, with the proof that, on whole
    staging buffers holding the four input blocks, the body runs to the continuation holding the inputs as they
    were and the two written buffers with those pieces written. -/
noncomputable def kernelRun (c : Dev nD) (i : grid0.Coords)
    (arg2 : Memref sig .tc .vmem S1x256x128 .f32) (harg2 : arg2.IsWhole) (arg3 : Memref sig .tc .vmem S1x4096x128 .f32) (harg3 : arg3.IsWhole)
    (arg4 : Memref sig .tc .vmem S1x256x1 .i32) (harg4 : arg4.IsWhole) (arg5 : Memref sig .tc .vmem S1x1x4096 .i32) (harg5 : arg5.IsWhole)
    (arg6 : Memref sig .tc .vmem S1x256x1 .f32) (harg6 : arg6.IsWhole) (arg7 : Memref sig .tc .vmem S256x4096 .f32) (harg7 : arg7.IsWhole)
    (x0 : Vec F S1x256x128 .f32) (x1 : Vec F S1x4096x128 .f32) (x2 : Vec F S1x256x1 .i32) (x3 : Vec F S1x1x4096 .i32) :
    Σ' (L4 : List (View.Piece (Elt F) S1x256x1 .f32)), { LS : List (View.Piece (Elt F) S256x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__triplet_kernel i arg2 harg2 arg3 harg3 arg4 harg4 arg5 harg5 arg6 harg6 arg7 harg7) K } := by
  refine ⟨?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%d7, %f7, -, H7⟩, Hk⟩
    obtain rfl := harg2.eq_unread hf0; obtain rfl := harg3.eq_unread hf1
    obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H7

/-- The output block's pieces tile it, so they cover it. -/
theorem cover4 (c : Dev nD) (i : grid0.Coords)
    (arg2 : Memref sig .tc .vmem S1x256x128 .f32) (harg2 : arg2.IsWhole) (arg3 : Memref sig .tc .vmem S1x4096x128 .f32) (harg3 : arg3.IsWhole)
    (arg4 : Memref sig .tc .vmem S1x256x1 .i32) (harg4 : arg4.IsWhole) (arg5 : Memref sig .tc .vmem S1x1x4096 .i32) (harg5 : arg5.IsWhole)
    (arg6 : Memref sig .tc .vmem S1x256x1 .f32) (harg6 : arg6.IsWhole) (arg7 : Memref sig .tc .vmem S256x4096 .f32) (harg7 : arg7.IsWhole)
    (x0 : Vec F S1x256x128 .f32) (x1 : Vec F S1x4096x128 .f32) (x2 : Vec F S1x256x1 .i32) (x3 : Vec F S1x1x4096 .i32) (y : S1x256x1.Idx) :
    ∃ pc ∈ (kernelRun c i arg2 harg2 arg3 harg3 arg4 harg4 arg5 harg5 arg6 harg6 arg7 harg7 x0 x1 x2 x3).1, y ∈ pc.1.set :=
  View.cover_of_tiledL (kernelRun c i arg2 harg2 arg3 harg3 arg4 harg4 arg5 harg5 arg6 harg6 arg7 harg7 x0 x1 x2 x3).1 S1x256x1.size (by sl_kernel_rfl) y

/-- What the body leaves in the output block: its pieces read back. -/
def outBlk (c : Dev nD) (i : grid0.Coords)
    (arg2 : Memref sig .tc .vmem S1x256x128 .f32) (harg2 : arg2.IsWhole) (arg3 : Memref sig .tc .vmem S1x4096x128 .f32) (harg3 : arg3.IsWhole)
    (arg4 : Memref sig .tc .vmem S1x256x1 .i32) (harg4 : arg4.IsWhole) (arg5 : Memref sig .tc .vmem S1x1x4096 .i32) (harg5 : arg5.IsWhole)
    (arg6 : Memref sig .tc .vmem S1x256x1 .f32) (harg6 : arg6.IsWhole) (arg7 : Memref sig .tc .vmem S256x4096 .f32) (harg7 : arg7.IsWhole)
    (x0 : Vec F S1x256x128 .f32) (x1 : Vec F S1x4096x128 .f32) (x2 : Vec F S1x256x1 .i32) (x3 : Vec F S1x1x4096 .i32) : Vec F S1x256x1 .f32 :=
  VO4.read (Elt F) (VO4.writes (Elt F) VO4.junk (kernelRun c i arg2 harg2 arg3 harg3 arg4 harg4 arg5 harg5 arg6 harg6 arg7 harg7 x0 x1 x2 x3).1)

/-- Each window's current staging buffer at point `t`, as the pipeline passes it, and its wholeness. -/
abbrev ms0 (t : Fin cfg0.N) : Memref sig .tc .vmem S1x256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x1 .f32 := win0_4.stage (cfg0.slots t 4)
abbrev hs4 (t : Fin cfg0.N) : (ms4 t).IsWhole := hstage0_4 ((cfg0.slots t 4).cast nbuf0_4)

/-- The output block after point `t`: the body's pieces at that point's buffers and input blocks. -/
def outAt (c : Dev nD) (t : Fin cfg0.N) : Vec F S1x256x1 .f32 :=
  outBlk c (grid0.coords t) (ms0 t) (hs0 t) (ms1 t) (hs1 t) (ms2 t) (hs2 t) (ms3 t) (hs3 t) (ms4 t) (hs4 t) scM (Memref.isWhole_whole _)
    (iblk m c 0 t) (iblk m c 1 t) (iblk m c 2 t) (iblk m c 3 t)

/-! ## The pipeline's proof data -/

/-- The proof data on core `c`: the arrays as the region finds them; after the body each input's buffer still at
    its block and the output's at the body's pieces; the invariant "scratch at anything"; nothing owed. The
    embeddings array is read through two windows, which hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 4000000 in
/-- The body at any point: the inputs' buffers hold their blocks, so the run applies; the invariant lends the
    scratch buffer and takes it back at whatever the body left; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA_eq]
  unfold outAt outBlk
  iintro ⟨⟨HS, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BRun.lean ====
/-
  The launch of the kernel's program: host operations, the kernel region, host operations.

  The embeddings array is handed to the kernel through two windows. The launch holds each array's buffer once, at
  the full share; the two windows on the embeddings hold it at the two halves of that share, which is how the
  buffers behind the arrays become the pipeline's arrays at entry, and how they are put together again when the
  region is left. The four host operations after the region read the row losses and write only buffers of their own.
-/
import proofs.«141028_j22084721836475_2_alg».proof.Proof.BBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window and buffer by buffer -/

/-- The pipeline's arrays at contents `Fa`, window by window: the embeddings at the two half shares. -/
theorem arrays_chain (c : Dev nD) (Fa : (w : Fin cfg0.W) → Buf (Elt F) ((cfg0.win w).arr.view.loc (c.tc : Thread nD τ))) :
    ((dats m 0 c).arrays Fa : sProp 𝕄)
      = iprop((((c : Thread nD τ).loc main_v0) ↦{fullShare.left} Fa 0) ∗ (((c : Thread nD τ).loc main_v0) ↦{fullShare.right} Fa 1)
          ∗ (((c : Thread nD τ).loc main_v2) ↦{fullShare} Fa 2) ∗ (((c : Thread nD τ).loc main_v3) ↦{fullShare} Fa 3)
          ∗ (((c : Thread nD τ).loc main_v4) ↦{fullShare} Fa 4)) := by
  unfold Dat.arrays
  rw [bigSep_W0]
  rw [(arr_whole0 0).set_eq_univ, (arr_whole0 2).set_eq_univ,
    (arr_whole0 3).set_eq_univ, (arr_whole0 4).set_eq_univ]
  rfl

/-- The distinct buffers behind the arrays at contents `W`, one by one. -/
theorem arrBufs_chain (c : Dev nD) (W : (b : Ref sig .tc) → Buf (Elt F) ((c.tc : Thread nD τ).loc b)) :
    (Pipeline.arrBufs spec0 c W : sProp 𝕄)
      = iprop((((c : Thread nD τ).loc main_v0) ↦{fullShare} W main_v0) ∗ (((c : Thread nD τ).loc main_v2) ↦{fullShare} W main_v2)
          ∗ (((c : Thread nD τ).loc main_v3) ↦{fullShare} W main_v3) ∗ (((c : Thread nD τ).loc main_v4) ↦{fullShare} W main_v4)) := by
  unfold Pipeline.arrBufs
  rw [bigSep_eq_bigSepL_of_eq [main_v0, main_v2, main_v3, main_v4] (by decide) (by decide)]
  rfl

/-- The buffers behind the arrays at `W` make the pipeline's arrays at contents read off `W`: the embeddings'
    buffer is dealt to its two windows by halves. -/
theorem arrays_of_bufs (c : Dev nD) (W : (b : Ref sig .tc) → Buf (Elt F) ((c.tc : Thread nD τ).loc b))
    (Fa : (w : Fin cfg0.W) → Buf (Elt F) ((cfg0.win w).arr.view.loc (c.tc : Thread nD τ)))
    (hF : ∀ w, Fa w = W (Pipeline.arrRef spec0 w)) :
    (Pipeline.arrBufs spec0 c W : sProp 𝕄) ⊢ (dats m 0 c).arrays Fa := by
  obtain rfl : Fa = fun w => W (Pipeline.arrRef spec0 w) := funext hF
  rw [arrBufs_chain, arrays_chain]
  iintro ⟨H0, H2, H3, H4⟩
  ihave H0' := ((pointsTo_share (PosShare.mem_left_op_right fullShare)).1) $$ H0
  icases H0' with ⟨Hl, Hr⟩
  isplitl [Hl]; · iexact Hl
  isplitl [Hr]; · iexact Hr
  isplitl [H2]; · iexact H2
  isplitl [H3]; · iexact H3
  iexact H4

/-- And back: the two halves of the embeddings' buffer are put together again. -/
theorem bufs_of_arrays (c : Dev nD) (W : (b : Ref sig .tc) → Buf (Elt F) ((c.tc : Thread nD τ).loc b))
    (Fa : (w : Fin cfg0.W) → Buf (Elt F) ((cfg0.win w).arr.view.loc (c.tc : Thread nD τ)))
    (hF : ∀ w, Fa w = W (Pipeline.arrRef spec0 w)) :
    (dats m 0 c).arrays Fa ⊢ (Pipeline.arrBufs spec0 c W : sProp 𝕄) := by
  obtain rfl : Fa = fun w => W (Pipeline.arrRef spec0 w) := funext hF
  rw [arrBufs_chain, arrays_chain]
  refine BIBase.Entails.trans ?_ (sep_mono (pointsTo_share (PosShare.mem_left_op_right fullShare)).2 .rfl)
  iintro ⟨Hl, Hr, H2, H3, H4⟩
  isplitl [Hl Hr]
  · isplitl [Hl]; · iexact Hl
    iexact Hr
  isplitl [H2]; · iexact H2
  isplitl [H3]; · iexact H3
  iexact H4

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to
    the region continued by the later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- and allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-! ## The contents when the region is left, and after the later operations -/

/-- Core `c`'s buffers when the region is left: the row losses' array as the write-backs left it, everything
    else as the region found it. -/
def Wx (c : Dev nD) : Valuation τ sig (Elt F) :=
  Function.update (V0 m c) (Proc.devRef .tc main_v4) ((dats m 0 c).arrAt 4 cfg0.N)

theorem Wx_out (c : Dev nD) : Wx m c (Proc.devRef .tc main_v4) = (dats m 0 c).arrAt 4 cfg0.N :=
  Function.update_self _ _ _

theorem Wx_of_ne (c : Dev nD) (b : Ref sig .tc) (hb : b ≠ main_v4) : Wx m c (Proc.devRef .tc b) = V m c b :=
  Function.update_of_ne (StableHlo.devRef_ne_of_ne hb) _ _

/-- Every array's final contents are what `Wx` holds at its buffer: an input array is never written. -/
theorem arrAt_Wx (c : Dev nD) (w : Fin cfg0.W) : (dats m 0 c).arrAt w cfg0.N = Wx m c (Proc.devRef .tc (Pipeline.arrRef spec0 w)) := by
  match w with
  | ⟨0, _⟩ => exact ((dats m 0 c).arrAt_in 0 rfl _).trans ((A_eq m c 0).trans (Wx_of_ne m c main_v0 (by decide)).symm)
  | ⟨1, _⟩ => exact ((dats m 0 c).arrAt_in 1 rfl _).trans ((A_eq m c 1).trans (Wx_of_ne m c main_v0 (by decide)).symm)
  | ⟨2, _⟩ => exact ((dats m 0 c).arrAt_in 2 rfl _).trans ((A_eq m c 2).trans (Wx_of_ne m c main_v2 (by decide)).symm)
  | ⟨3, _⟩ => exact ((dats m 0 c).arrAt_in 3 rfl _).trans ((A_eq m c 3).trans (Wx_of_ne m c main_v3 (by decide)).symm)
  | ⟨4, _⟩ => exact (Wx_out m c).symm

/-- Core `c`'s buffers after the four later operations. -/
abbrev Vend (c : Dev nD) (b : Ref sig .tc) : Buf (Elt F) ((c : Thread nD τ).loc b) :=
  StableHlo.after (List.flatten [hostOps1]) (Wx m c) (Proc.devRef .tc b)

/-- The later operations write no array of the pipeline. -/
theorem Vend_arr (c : Dev nD) (w : Fin cfg0.W) : Vend m c (Pipeline.arrRef spec0 w) = Wx m c (Proc.devRef .tc (Pipeline.arrRef spec0 w)) :=
  StableHlo.after_of_forall_not_mem (b := Proc.devRef .tc (Pipeline.arrRef spec0 w)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals (fin_cases w <;> exact StableHlo.devRef_ne_of_ne (by decide))))

/-- When the region is left, the arrays at their final contents and the other unscoped buffers as the region found
    them are all the core's unscoped buffers, each whole, at the exit contents. -/
theorem exit_held (c : Dev nD) :
    iprop((dats m 0 c).arrays ((dats m 0 c).arrAt · cfg0.N) ∗ Pipeline.unscopedRest spec0 c (V m c))
      ⊢ (StableHlo.held (c.tc : Thread nD τ) (Pipeline.ucRefs τ sig) (Wx m c) : sProp 𝕄) := by
  have hZ : (Pipeline.unscopedRest spec0 c (V m c) : sProp 𝕄) = Pipeline.unscopedRest spec0 c (fun b => Wx m c (Proc.devRef .tc b)) := by
    unfold Pipeline.unscopedRest
    exact bigSep_congr fun b hb => by
      dsimp only
      rw [Wx_of_ne m c b fun e => (Finset.mem_sdiff.mp hb).2 (Finset.mem_image.mpr ⟨4, Finset.mem_univ _, e.symm⟩)]
  rw [hZ, ← Pipeline.unscopedBufs_held c (Wx m c), Pipeline.unscopedBufs_split₀ cfgs 0 winFacts₀0.arr_unscoped c]
  exact sep_mono (bufs_of_arrays m c (fun b => Wx m c (Proc.devRef .tc b)) _ (arrAt_Wx m c)) .rfl

/-- After the later operations the core's unscoped buffers are again the pipeline's arrays, unchanged, and the
    other buffers at the contents after those operations. -/
theorem end_split (c : Dev nD) :
    (StableHlo.held (c.tc : Thread nD τ) (Pipeline.ucRefs τ sig) (StableHlo.after (List.flatten [hostOps1]) (Wx m c)) : sProp 𝕄)
      ⊢ iprop((dats m 0 c).arrays ((dats m 0 c).arrAt · cfg0.N) ∗ Pipeline.unscopedRest spec0 c (Vend m c)) := by
  rw [← Pipeline.unscopedBufs_held c (StableHlo.after (List.flatten [hostOps1]) (Wx m c)),
    Pipeline.unscopedBufs_split₀ cfgs 0 winFacts₀0.arr_unscoped c]
  exact sep_mono (arrays_of_bufs m c (Vend m c) _ fun w => (arrAt_Wx m c w).trans (Vend_arr m c w).symm) .rfl

set_option backward.isDefEq.respectTransparency.types false in
/-- THE OPERATIONS AFTER THE REGION: from the region's exit — the arrays at their final contents, the other
    unscoped buffers as the region found them — they run, and hand back the arrays unchanged and the other
    buffers at the contents after them. -/
theorem tail_run (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ
          (Pipeline.chain (([hostOps1] : List (List (HloOp τ sig (Elt F)))).map StableHlo.seq)) Q' := by
  rw [← List.append_nil (([hostOps1] : List (List (HloOp τ sig (Elt F)))).map StableHlo.seq)]
  iintro ⟨Hk, Hb, Ha, HZ⟩
  ihave Hu := (exit_held m c) $$ [Ha HZ]
  · isplitl [Ha]; · iexact Ha
    iexact HZ
  iapply (Pipeline.wp_seqs_then (fun q => (cfgs q).toPCfg (Val := Elt F)) defs₀ Variants.none c (Pipeline.ucRefs τ sig) [] [hostOps1] sfx_sub sfx_fresh (Wx m c)) $$ [Hb Hu]
  · isplitl [Hb]; · iexact Hb
    iexact Hu
  iintro ⟨-, Hu⟩
  rw [Pipeline.chain_nil, wp_pure]
  imodintro
  iapply Hk
  iapply (end_split m c)
  iexact Hu

/-! ## The run -/

set_option backward.isDefEq.respectTransparency.types false in
/-- At the compiled mesh, from any memory with zero counters: every weakly fair execution of @main on the
    TensorCores terminates; every array of the pipeline ends at what the write-backs leave in it, and every other
    unscoped buffer at its contents after the later operations. -/
theorem run_main : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ fun w => A_eq m c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_run m c Q')
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => ⟨(h c).1, (h c).2.2⟩)

end Cert.Kernel.Hand

end
-- ==== Proof.BPost.lean ====
/-
  What the run leaves in the argument arrays and in the result.

  No host operation writes an argument array and the kernel's windows do not stage them, so both end as launched.
  The result buffer is written by the last host operation: the quotient by 12288 of the sum, from 0, of the row
  losses' array as the region left it.
-/
import proofs.«141028_j22084721836475_2_alg».proof.Proof.BRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No host operation before the region writes the embeddings argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor the labels argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The embeddings argument ends as launched. -/
theorem Vend_main_arg0 (c : Dev nD) : Vend m c main_arg0 = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((Wx_of_ne m c main_arg0 (by decide)).trans (V_main_arg0 m c))

/-- The labels argument ends as launched. -/
theorem Vend_main_arg1 (c : Dev nD) : Vend m c main_arg1 = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((Wx_of_ne m c main_arg1 (by decide)).trans (V_main_arg1 m c))

/-- The result buffer after the later operations: the sum, from 0, of the row losses' array as the region left it,
    divided by 12288. -/
theorem Vend_main_v6 (c : Dev nD) :
    Vend m c main_v6 = Host.divf (Host.reduceAdd ((dats m 0 c).arrAt 4 cfg0.N) (constant (F := F) S_ .f32 0x00000000#32) reducesTo_S3x4096x1_S_d0_1_2 h_S_)
      (constant (F := F) S_ .f32 0x46400000#32) := by
  rw [← Wx_out m c]
  dsimp only [Vend]
  simp only [hostOps1, List.flatten_cons, List.flatten_nil, List.append_nil]
  after_results

/-- THE FRAME: the program runs to the end, faults nowhere, and leaves both argument arrays as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (Vend_main_arg0 m c),
     ((h c).2 main_arg1 (Pipeline.mem_restRefs_of main_arg1 (by decide) (by decide))).trans (Vend_main_arg1 m c)⟩) (run_main m ρ)

/-- The run with the result named: the result buffer ends at the quotient of the summed row losses, the arguments as
    launched. -/
theorem run_result : θ_run (defs (F := F)) (onTc (τ := τ) (main (F := F))) ⟨m, fun _ => 0, ρ⟩ (fun r => ∀ c : Dev nD,
      r.2.mem ((c.tc : Thread nD τ).loc main_v6) = Host.divf (Host.reduceAdd ((dats m 0 c).arrAt 4 cfg0.N) (constant (F := F) S_ .f32 0x00000000#32) reducesTo_S3x4096x1_S_d0_1_2 h_S_)
        (constant (F := F) S_ .f32 0x46400000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (Vend_main_v6 m c),
     ((h c).2 main_arg0 (Pipeline.mem_restRefs_of main_arg0 (by decide) (by decide))).trans (Vend_main_arg0 m c),
     ((h c).2 main_arg1 (Pipeline.mem_restRefs_of main_arg1 (by decide) (by decide))).trans (Vend_main_arg1 m c)⟩) (run_main m ρ)

end Cert.Kernel.Hand

end
-- ==== Proof.KBody.lean ====
/-
  The kernel's body at one grid point, and the proof data of its pipeline.

  At grid point (s, i) the pipeline hands the body four input blocks — the 256 query rows i·256 … i·256+255 of
  subset s, all 4096 rows of subset s (the same array, read through a second window), the query rows' labels as
  a column, and all the subset's labels as a row — and one output block, the 256 row losses. The body stores the
  256 × 4096 similarity block into its own scratch buffer, reads it back, and stores the row losses; nothing is
  kept from one point to the next, so the region invariant is only "the scratch buffer holds something".
  What the body leaves in the output block is recorded as the list of pieces its run finds.
-/
import proofs.«141028_j22084721836475_2_alg».proof.Proof.Gen.KernelIdeal.Launch
import proofs.«141028_j22084721836475_2_alg».proof.Proof.Gen.KernelIdeal.Skeleton
import proofs.«141028_j22084721836475_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s buffer contents after the four host operations before the region (two reshapes, two broadcasts). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body on any staging buffers -/

/-- One staging buffer of the output window, through which the block's contents are stated. -/
abbrev VO4 : View sig .tc .vmem S1x256x1 .f32 := (Memref.whole cc0_stg4_0 : Memref sig .tc .vmem S1x256x1 .f32).view
/-- The scratch buffer as a memref. -/
abbrev scM : Memref sig .tc .vmem S256x4096 .f32 := Memref.whole cc0_scratch0

/-- The region invariant: the scratch buffer owned at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

set_option maxHeartbeats 4000000 in
/-- The pieces the body's stores leave in the output block and in the scratch buffer, with the proof that, on whole
    staging buffers holding the four input blocks, the body runs to the continuation holding the inputs as they
    were and the two written buffers with those pieces written. -/
noncomputable def kernelRun (c : Dev nD) (i : grid0.Coords)
    (arg2 : Memref sig .tc .vmem S1x256x128 .f32) (harg2 : arg2.IsWhole) (arg3 : Memref sig .tc .vmem S1x4096x128 .f32) (harg3 : arg3.IsWhole)
    (arg4 : Memref sig .tc .vmem S1x256x1 .i32) (harg4 : arg4.IsWhole) (arg5 : Memref sig .tc .vmem S1x1x4096 .i32) (harg5 : arg5.IsWhole)
    (arg6 : Memref sig .tc .vmem S1x256x1 .f32) (harg6 : arg6.IsWhole) (arg7 : Memref sig .tc .vmem S256x4096 .f32) (harg7 : arg7.IsWhole)
    (x0 : Vec F S1x256x128 .f32) (x1 : Vec F S1x4096x128 .f32) (x2 : Vec F S1x256x1 .i32) (x3 : Vec F S1x1x4096 .i32) :
    Σ' (L4 : List (View.Piece (Elt F) S1x256x1 .f32)), { LS : List (View.Piece (Elt F) S256x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__triplet_kernel i arg2 harg2 arg3 harg3 arg4 harg4 arg5 harg5 arg6 harg6 arg7 harg7) K } := by
  refine ⟨?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%d7, %f7, -, H7⟩, Hk⟩
    obtain rfl := harg2.eq_unread hf0; obtain rfl := harg3.eq_unread hf1
    obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H7

/-- The output block's pieces tile it, so they cover it. -/
theorem cover4 (c : Dev nD) (i : grid0.Coords)
    (arg2 : Memref sig .tc .vmem S1x256x128 .f32) (harg2 : arg2.IsWhole) (arg3 : Memref sig .tc .vmem S1x4096x128 .f32) (harg3 : arg3.IsWhole)
    (arg4 : Memref sig .tc .vmem S1x256x1 .i32) (harg4 : arg4.IsWhole) (arg5 : Memref sig .tc .vmem S1x1x4096 .i32) (harg5 : arg5.IsWhole)
    (arg6 : Memref sig .tc .vmem S1x256x1 .f32) (harg6 : arg6.IsWhole) (arg7 : Memref sig .tc .vmem S256x4096 .f32) (harg7 : arg7.IsWhole)
    (x0 : Vec F S1x256x128 .f32) (x1 : Vec F S1x4096x128 .f32) (x2 : Vec F S1x256x1 .i32) (x3 : Vec F S1x1x4096 .i32) (y : S1x256x1.Idx) :
    ∃ pc ∈ (kernelRun c i arg2 harg2 arg3 harg3 arg4 harg4 arg5 harg5 arg6 harg6 arg7 harg7 x0 x1 x2 x3).1, y ∈ pc.1.set :=
  View.cover_of_tiledL (kernelRun c i arg2 harg2 arg3 harg3 arg4 harg4 arg5 harg5 arg6 harg6 arg7 harg7 x0 x1 x2 x3).1 S1x256x1.size (by sl_kernel_rfl) y

/-- What the body leaves in the output block: its pieces read back. -/
def outBlk (c : Dev nD) (i : grid0.Coords)
    (arg2 : Memref sig .tc .vmem S1x256x128 .f32) (harg2 : arg2.IsWhole) (arg3 : Memref sig .tc .vmem S1x4096x128 .f32) (harg3 : arg3.IsWhole)
    (arg4 : Memref sig .tc .vmem S1x256x1 .i32) (harg4 : arg4.IsWhole) (arg5 : Memref sig .tc .vmem S1x1x4096 .i32) (harg5 : arg5.IsWhole)
    (arg6 : Memref sig .tc .vmem S1x256x1 .f32) (harg6 : arg6.IsWhole) (arg7 : Memref sig .tc .vmem S256x4096 .f32) (harg7 : arg7.IsWhole)
    (x0 : Vec F S1x256x128 .f32) (x1 : Vec F S1x4096x128 .f32) (x2 : Vec F S1x256x1 .i32) (x3 : Vec F S1x1x4096 .i32) : Vec F S1x256x1 .f32 :=
  VO4.read (Elt F) (VO4.writes (Elt F) VO4.junk (kernelRun c i arg2 harg2 arg3 harg3 arg4 harg4 arg5 harg5 arg6 harg6 arg7 harg7 x0 x1 x2 x3).1)

/-- Each window's current staging buffer at point `t`, as the pipeline passes it, and its wholeness. -/
abbrev ms0 (t : Fin cfg0.N) : Memref sig .tc .vmem S1x256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x1 .f32 := win0_4.stage (cfg0.slots t 4)
abbrev hs4 (t : Fin cfg0.N) : (ms4 t).IsWhole := hstage0_4 ((cfg0.slots t 4).cast nbuf0_4)

/-- The output block after point `t`: the body's pieces at that point's buffers and input blocks. -/
def outAt (c : Dev nD) (t : Fin cfg0.N) : Vec F S1x256x1 .f32 :=
  outBlk c (grid0.coords t) (ms0 t) (hs0 t) (ms1 t) (hs1 t) (ms2 t) (hs2 t) (ms3 t) (hs3 t) (ms4 t) (hs4 t) scM (Memref.isWhole_whole _)
    (iblk m c 0 t) (iblk m c 1 t) (iblk m c 2 t) (iblk m c 3 t)

/-! ## The pipeline's proof data -/

/-- The proof data on core `c`: the arrays as the region finds them; after the body each input's buffer still at
    its block and the output's at the body's pieces; the invariant "scratch at anything"; nothing owed. The
    embeddings array is read through two windows, which hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 4000000 in
/-- The body at any point: the inputs' buffers hold their blocks, so the run applies; the invariant lends the
    scratch buffer and takes it back at whatever the body left; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA_eq]
  unfold outAt outBlk
  iintro ⟨⟨HS, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRun.lean ====
/-
  The launch of the kernel's program: host operations, the kernel region, host operations.

  The embeddings array is handed to the kernel through two windows. The launch holds each array's buffer once, at
  the full share; the two windows on the embeddings hold it at the two halves of that share, which is how the
  buffers behind the arrays become the pipeline's arrays at entry, and how they are put together again when the
  region is left. The four host operations after the region read the row losses and write only buffers of their own.
-/
import proofs.«141028_j22084721836475_2_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window and buffer by buffer -/

/-- The pipeline's arrays at contents `Fa`, window by window: the embeddings at the two half shares. -/
theorem arrays_chain (c : Dev nD) (Fa : (w : Fin cfg0.W) → Buf (Elt F) ((cfg0.win w).arr.view.loc (c.tc : Thread nD τ))) :
    ((dats m 0 c).arrays Fa : sProp 𝕄)
      = iprop((((c : Thread nD τ).loc main_v0) ↦{fullShare.left} Fa 0) ∗ (((c : Thread nD τ).loc main_v0) ↦{fullShare.right} Fa 1)
          ∗ (((c : Thread nD τ).loc main_v2) ↦{fullShare} Fa 2) ∗ (((c : Thread nD τ).loc main_v3) ↦{fullShare} Fa 3)
          ∗ (((c : Thread nD τ).loc main_v4) ↦{fullShare} Fa 4)) := by
  unfold Dat.arrays
  rw [bigSep_W0]
  rw [(arr_whole0 0).set_eq_univ, (arr_whole0 2).set_eq_univ,
    (arr_whole0 3).set_eq_univ, (arr_whole0 4).set_eq_univ]
  rfl

/-- The distinct buffers behind the arrays at contents `W`, one by one. -/
theorem arrBufs_chain (c : Dev nD) (W : (b : Ref sig .tc) → Buf (Elt F) ((c.tc : Thread nD τ).loc b)) :
    (Pipeline.arrBufs spec0 c W : sProp 𝕄)
      = iprop((((c : Thread nD τ).loc main_v0) ↦{fullShare} W main_v0) ∗ (((c : Thread nD τ).loc main_v2) ↦{fullShare} W main_v2)
          ∗ (((c : Thread nD τ).loc main_v3) ↦{fullShare} W main_v3) ∗ (((c : Thread nD τ).loc main_v4) ↦{fullShare} W main_v4)) := by
  unfold Pipeline.arrBufs
  rw [bigSep_eq_bigSepL_of_eq [main_v0, main_v2, main_v3, main_v4] (by decide) (by decide)]
  rfl

/-- The buffers behind the arrays at `W` make the pipeline's arrays at contents read off `W`: the embeddings'
    buffer is dealt to its two windows by halves. -/
theorem arrays_of_bufs (c : Dev nD) (W : (b : Ref sig .tc) → Buf (Elt F) ((c.tc : Thread nD τ).loc b))
    (Fa : (w : Fin cfg0.W) → Buf (Elt F) ((cfg0.win w).arr.view.loc (c.tc : Thread nD τ)))
    (hF : ∀ w, Fa w = W (Pipeline.arrRef spec0 w)) :
    (Pipeline.arrBufs spec0 c W : sProp 𝕄) ⊢ (dats m 0 c).arrays Fa := by
  obtain rfl : Fa = fun w => W (Pipeline.arrRef spec0 w) := funext hF
  rw [arrBufs_chain, arrays_chain]
  iintro ⟨H0, H2, H3, H4⟩
  ihave H0' := ((pointsTo_share (PosShare.mem_left_op_right fullShare)).1) $$ H0
  icases H0' with ⟨Hl, Hr⟩
  isplitl [Hl]; · iexact Hl
  isplitl [Hr]; · iexact Hr
  isplitl [H2]; · iexact H2
  isplitl [H3]; · iexact H3
  iexact H4

/-- And back: the two halves of the embeddings' buffer are put together again. -/
theorem bufs_of_arrays (c : Dev nD) (W : (b : Ref sig .tc) → Buf (Elt F) ((c.tc : Thread nD τ).loc b))
    (Fa : (w : Fin cfg0.W) → Buf (Elt F) ((cfg0.win w).arr.view.loc (c.tc : Thread nD τ)))
    (hF : ∀ w, Fa w = W (Pipeline.arrRef spec0 w)) :
    (dats m 0 c).arrays Fa ⊢ (Pipeline.arrBufs spec0 c W : sProp 𝕄) := by
  obtain rfl : Fa = fun w => W (Pipeline.arrRef spec0 w) := funext hF
  rw [arrBufs_chain, arrays_chain]
  refine BIBase.Entails.trans ?_ (sep_mono (pointsTo_share (PosShare.mem_left_op_right fullShare)).2 .rfl)
  iintro ⟨Hl, Hr, H2, H3, H4⟩
  isplitl [Hl Hr]
  · isplitl [Hl]; · iexact Hl
    iexact Hr
  isplitl [H2]; · iexact H2
  isplitl [H3]; · iexact H3
  iexact H4

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to
    the region continued by the later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- and allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-! ## The contents when the region is left, and after the later operations -/

/-- Core `c`'s buffers when the region is left: the row losses' array as the write-backs left it, everything
    else as the region found it. -/
def Wx (c : Dev nD) : Valuation τ sig (Elt F) :=
  Function.update (V0 m c) (Proc.devRef .tc main_v4) ((dats m 0 c).arrAt 4 cfg0.N)

theorem Wx_out (c : Dev nD) : Wx m c (Proc.devRef .tc main_v4) = (dats m 0 c).arrAt 4 cfg0.N :=
  Function.update_self _ _ _

theorem Wx_of_ne (c : Dev nD) (b : Ref sig .tc) (hb : b ≠ main_v4) : Wx m c (Proc.devRef .tc b) = V m c b :=
  Function.update_of_ne (StableHlo.devRef_ne_of_ne hb) _ _

/-- Every array's final contents are what `Wx` holds at its buffer: an input array is never written. -/
theorem arrAt_Wx (c : Dev nD) (w : Fin cfg0.W) : (dats m 0 c).arrAt w cfg0.N = Wx m c (Proc.devRef .tc (Pipeline.arrRef spec0 w)) := by
  match w with
  | ⟨0, _⟩ => exact ((dats m 0 c).arrAt_in 0 rfl _).trans ((A_eq m c 0).trans (Wx_of_ne m c main_v0 (by decide)).symm)
  | ⟨1, _⟩ => exact ((dats m 0 c).arrAt_in 1 rfl _).trans ((A_eq m c 1).trans (Wx_of_ne m c main_v0 (by decide)).symm)
  | ⟨2, _⟩ => exact ((dats m 0 c).arrAt_in 2 rfl _).trans ((A_eq m c 2).trans (Wx_of_ne m c main_v2 (by decide)).symm)
  | ⟨3, _⟩ => exact ((dats m 0 c).arrAt_in 3 rfl _).trans ((A_eq m c 3).trans (Wx_of_ne m c main_v3 (by decide)).symm)
  | ⟨4, _⟩ => exact (Wx_out m c).symm

/-- Core `c`'s buffers after the four later operations. -/
abbrev Vend (c : Dev nD) (b : Ref sig .tc) : Buf (Elt F) ((c : Thread nD τ).loc b) :=
  StableHlo.after (List.flatten [hostOps1]) (Wx m c) (Proc.devRef .tc b)

/-- The later operations write no array of the pipeline. -/
theorem Vend_arr (c : Dev nD) (w : Fin cfg0.W) : Vend m c (Pipeline.arrRef spec0 w) = Wx m c (Proc.devRef .tc (Pipeline.arrRef spec0 w)) :=
  StableHlo.after_of_forall_not_mem (b := Proc.devRef .tc (Pipeline.arrRef spec0 w)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals (fin_cases w <;> exact StableHlo.devRef_ne_of_ne (by decide))))

/-- When the region is left, the arrays at their final contents and the other unscoped buffers as the region found
    them are all the core's unscoped buffers, each whole, at the exit contents. -/
theorem exit_held (c : Dev nD) :
    iprop((dats m 0 c).arrays ((dats m 0 c).arrAt · cfg0.N) ∗ Pipeline.unscopedRest spec0 c (V m c))
      ⊢ (StableHlo.held (c.tc : Thread nD τ) (Pipeline.ucRefs τ sig) (Wx m c) : sProp 𝕄) := by
  have hZ : (Pipeline.unscopedRest spec0 c (V m c) : sProp 𝕄) = Pipeline.unscopedRest spec0 c (fun b => Wx m c (Proc.devRef .tc b)) := by
    unfold Pipeline.unscopedRest
    exact bigSep_congr fun b hb => by
      dsimp only
      rw [Wx_of_ne m c b fun e => (Finset.mem_sdiff.mp hb).2 (Finset.mem_image.mpr ⟨4, Finset.mem_univ _, e.symm⟩)]
  rw [hZ, ← Pipeline.unscopedBufs_held c (Wx m c), Pipeline.unscopedBufs_split₀ cfgs 0 winFacts₀0.arr_unscoped c]
  exact sep_mono (bufs_of_arrays m c (fun b => Wx m c (Proc.devRef .tc b)) _ (arrAt_Wx m c)) .rfl

/-- After the later operations the core's unscoped buffers are again the pipeline's arrays, unchanged, and the
    other buffers at the contents after those operations. -/
theorem end_split (c : Dev nD) :
    (StableHlo.held (c.tc : Thread nD τ) (Pipeline.ucRefs τ sig) (StableHlo.after (List.flatten [hostOps1]) (Wx m c)) : sProp 𝕄)
      ⊢ iprop((dats m 0 c).arrays ((dats m 0 c).arrAt · cfg0.N) ∗ Pipeline.unscopedRest spec0 c (Vend m c)) := by
  rw [← Pipeline.unscopedBufs_held c (StableHlo.after (List.flatten [hostOps1]) (Wx m c)),
    Pipeline.unscopedBufs_split₀ cfgs 0 winFacts₀0.arr_unscoped c]
  exact sep_mono (arrays_of_bufs m c (Vend m c) _ fun w => (arrAt_Wx m c w).trans (Vend_arr m c w).symm) .rfl

set_option backward.isDefEq.respectTransparency.types false in
/-- THE OPERATIONS AFTER THE REGION: from the region's exit — the arrays at their final contents, the other
    unscoped buffers as the region found them — they run, and hand back the arrays unchanged and the other
    buffers at the contents after them. -/
theorem tail_run (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ
          (Pipeline.chain (([hostOps1] : List (List (HloOp τ sig (Elt F)))).map StableHlo.seq)) Q' := by
  rw [← List.append_nil (([hostOps1] : List (List (HloOp τ sig (Elt F)))).map StableHlo.seq)]
  iintro ⟨Hk, Hb, Ha, HZ⟩
  ihave Hu := (exit_held m c) $$ [Ha HZ]
  · isplitl [Ha]; · iexact Ha
    iexact HZ
  iapply (Pipeline.wp_seqs_then (fun q => (cfgs q).toPCfg (Val := Elt F)) defs₀ Variants.none c (Pipeline.ucRefs τ sig) [] [hostOps1] sfx_sub sfx_fresh (Wx m c)) $$ [Hb Hu]
  · isplitl [Hb]; · iexact Hb
    iexact Hu
  iintro ⟨-, Hu⟩
  rw [Pipeline.chain_nil, wp_pure]
  imodintro
  iapply Hk
  iapply (end_split m c)
  iexact Hu

/-! ## The run -/

set_option backward.isDefEq.respectTransparency.types false in
/-- At the compiled mesh, from any memory with zero counters: every weakly fair execution of @main on the
    TensorCores terminates; every array of the pipeline ends at what the write-backs leave in it, and every other
    unscoped buffer at its contents after the later operations. -/
theorem run_main : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c) _ fun w => A_eq m c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_run m c Q')
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => ⟨(h c).1, (h c).2.2⟩)

end Cert.KernelIdeal.Hand

end
-- ==== Proof.KPost.lean ====
/-
  What the run leaves in the argument arrays and in the result.

  No host operation writes an argument array and the kernel's windows do not stage them, so both end as launched.
  The result buffer is written by the last host operation: the quotient by 12288 of the sum, from 0, of the row
  losses' array as the region left it.
-/
import proofs.«141028_j22084721836475_2_alg».proof.Proof.KRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No host operation before the region writes the embeddings argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor the labels argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The embeddings argument ends as launched. -/
theorem Vend_main_arg0 (c : Dev nD) : Vend m c main_arg0 = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((Wx_of_ne m c main_arg0 (by decide)).trans (V_main_arg0 m c))

/-- The labels argument ends as launched. -/
theorem Vend_main_arg1 (c : Dev nD) : Vend m c main_arg1 = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ((Wx_of_ne m c main_arg1 (by decide)).trans (V_main_arg1 m c))

/-- The result buffer after the later operations: the sum, from 0, of the row losses' array as the region left it,
    divided by 12288. -/
theorem Vend_main_v6 (c : Dev nD) :
    Vend m c main_v6 = Host.divf (Host.reduceAdd ((dats m 0 c).arrAt 4 cfg0.N) (constant (F := F) S_ .f32 0x00000000#32) reducesTo_S3x4096x1_S_d0_1_2 h_S_)
      (constant (F := F) S_ .f32 0x46400000#32) := by
  rw [← Wx_out m c]
  dsimp only [Vend]
  simp only [hostOps1, List.flatten_cons, List.flatten_nil, List.append_nil]
  after_results

/-- THE FRAME: the program runs to the end, faults nowhere, and leaves both argument arrays as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (Vend_main_arg0 m c),
     ((h c).2 main_arg1 (Pipeline.mem_restRefs_of main_arg1 (by decide) (by decide))).trans (Vend_main_arg1 m c)⟩) (run_main m ρ)

/-- The run with the result named: the result buffer ends at the quotient of the summed row losses, the arguments as
    launched. -/
theorem run_result : θ_run (defs (F := F)) (onTc (τ := τ) (main (F := F))) ⟨m, fun _ => 0, ρ⟩ (fun r => ∀ c : Dev nD,
      r.2.mem ((c.tc : Thread nD τ).loc main_v6) = Host.divf (Host.reduceAdd ((dats m 0 c).arrAt 4 cfg0.N) (constant (F := F) S_ .f32 0x00000000#32) reducesTo_S3x4096x1_S_d0_1_2 h_S_)
        (constant (F := F) S_ .f32 0x46400000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (Vend_main_v6 m c),
     ((h c).2 main_arg0 (Pipeline.mem_restRefs_of main_arg0 (by decide) (by decide))).trans (Vend_main_arg0 m c),
     ((h c).2 main_arg1 (Pipeline.mem_restRefs_of main_arg1 (by decide) (by decide))).trans (Vend_main_arg1 m c)⟩) (run_main m ρ)

end Cert.KernelIdeal.Hand

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.KerSim.lean ====
/-
  The similarity block of one grid point, read at an entry.

  The body views its 256 query rows and the subset's 4096 key rows as matrices, transposes the keys and
  multiplies into a zero accumulator; the entry (p, j) of the product is the inner product of query row p
  and key row j over the 128 coordinates.
-/
import proofs.«141028_j22084721836475_2_alg».proof.Proof.Gen.KernelIdeal.Skeleton
import proofs.«141028_j22084721836475_2_alg».proof.Proof.LibPlainDot
import Idealize.ShloMosaic.Lib.ValueLayout
import Idealize.ShloMosaic.Lib.Pipeline.Value

noncomputable section

open scoped BigOperators

namespace Cert.HardTriplet.Ker

open Cert.KernelIdeal Cert.KernelIdeal.Gen Cert.HardTriplet Idealize.ShloMosaic Idealize.ShloMosaic.ValueIdx

/-- The body's dimension numbers are those of a plain 256×128 by 128×4096 product. -/
theorem dot_plain : dot_S256x128_S128x4096_S256x4096_1_0_0_1_n_n = DotDims.plain 256 128 4096 := rfl

/-- Entry (p, j) of the similarity block: the inner product of query row p and key row j. -/
theorem sim_apply (x0 : Vec Ideal S1x256x128 .f32) (x1 : Vec Ideal S1x4096x128 .f32) (p : Fin 256) (j : Fin 4096) :
    k0_pay2 (F := Ideal) x0 x1 (ix2 p j)
      = ∑ k : Fin 128, x0 (ix3 (0 : Fin 1) p k) * x1 (ix3 (0 : Fin 1) j k) := by
  unfold k0_pay2
  dsimp only
  rw [shapeCast_self]
  refine (PlainDot.matmul_zero_apply (some .fp32) _ _ p j).trans ?_
  refine Finset.sum_congr rfl fun k _ => ?_
  rw [shapeCast_1ab_ab_apply, transpose_ix2_apply, shapeCast_1ab_ab_apply]

end Cert.HardTriplet.Ker

end
-- ==== Proof.Spec.lean ====
/-
  The hard-mined triplet loss, stated once as a function of the two argument arrays.

  The embeddings are split into 3 subsets of 4096 rows of 128 entries and the labels into 3 subsets of 4096
  words. Within subset s, row r is compared with every row j of the subset: the similarity is the inner product
  of the two rows; j is a positive of r when the labels agree and j ≠ r, a negative when the labels differ. With
  maxNeg and maxPos the largest similarity among negatives and among positives (an absent entry counted as the
  finite stand-in, the fold started from −∞), the row's loss is the sum of 1 − sim over positives with
  sim < maxNeg + 0.1, plus the sum of sim over negatives with sim > max(0.6, maxPos) − 0.1, and it is 0 when the
  row has no positive. The result is the mean over the 3 subsets of each subset's mean over its 4096 rows.
  All float literals are kept as their binary words, the same on both programs.
-/
import Idealize.ShloMosaic.PureOps.Ideal
import Idealize.ShloMosaic.Lib.ValueIdx

noncomputable section

open scoped BigOperators

namespace Cert.HardTriplet

open Idealize.ShloMosaic Idealize.ShloMosaic.ValueIdx

/-- The extended real a 32-bit float word denotes. -/
abbrev lit (w : BitVec 32) : EReal := Ideal.ofBits .f32 w

/-- The largest entry of a row among the columns a mask keeps; a dropped column counts as the stand-in
    −1e30, and the fold starts from −∞. -/
def maskedMax (x : Fin 4096 → EReal) (msk : Fin 4096 → BitVec 1) : EReal :=
  (Finset.univ : Finset (Fin 4096)).fold max (lit 0xFF800000#32)
    (fun j => Scalar.select (msk j) (x j) (lit 0xF149F2CA#32))

/-- Whether a mask keeps any column. -/
def anyBit (msk : Fin 4096 → BitVec 1) : BitVec 1 := if ∃ j, msk j = 1#1 then 1#1 else 0#1

/-- One row's loss from its similarities `x`, its positive and negative masks, and the bit saying whether it
    has a positive. -/
def rowLoss (x : Fin 4096 → EReal) (pos neg : Fin 4096 → BitVec 1) (hp : BitVec 1) : EReal :=
  Scalar.select hp
    ((∑ j : Fin 4096, Scalar.select
        (IntOp.andi (pos j) (Ideal.cmp .olt (x j) (maskedMax x neg + lit 0x3DCCCCCD#32)))
        (lit 0x3F800000#32 - x j) (lit 0x00000000#32))
      + (∑ j : Fin 4096, Scalar.select
        (IntOp.andi (neg j) (Ideal.cmp .ogt (x j)
          (max (lit 0x3F19999A#32) (maskedMax x pos) - lit 0x3DCCCCCD#32)))
        (x j) (lit 0x00000000#32)))
    (lit 0x00000000#32)

/-- The diagonal bit: 1 exactly when the column is the row itself. -/
def eyeBit (r j : Fin 4096) : BitVec 1 := if j = r then 1#1 else 0#1

/-- Labels agree. -/
def sameBit (T : (⟨2, ![3, 4096]⟩ : Shape).Idx → BitVec 32) (s : Fin 3) (r j : Fin 4096) : BitVec 1 :=
  IntOp.cmpi .eq (T (ix2 s r)) (T (ix2 s j))

/-- Positives of row r: same label, not r itself. -/
def posBit (T : (⟨2, ![3, 4096]⟩ : Shape).Idx → BitVec 32) (s : Fin 3) (r j : Fin 4096) : BitVec 1 :=
  IntOp.andi (sameBit T s r j) (IntOp.xori (eyeBit r j) 1#1)

/-- Negatives of row r: a different label. -/
def negBit (T : (⟨2, ![3, 4096]⟩ : Shape).Idx → BitVec 32) (s : Fin 3) (r j : Fin 4096) : BitVec 1 :=
  IntOp.xori (sameBit T s r j) 1#1

/-- Similarity of rows r and j of subset s: the inner product over the 128 entries. -/
def sim (E : (⟨3, ![3, 4096, 128]⟩ : Shape).Idx → EReal) (s : Fin 3) (r j : Fin 4096) : EReal :=
  ∑ k : Fin 128, E (ix3 s r k) * E (ix3 s j k)

/-- The loss of row r of subset s. -/
def lossAt (E : (⟨3, ![3, 4096, 128]⟩ : Shape).Idx → EReal) (T : (⟨2, ![3, 4096]⟩ : Shape).Idx → BitVec 32)
    (s : Fin 3) (r : Fin 4096) : EReal :=
  rowLoss (fun j => sim E s r j) (fun j => posBit T s r j) (fun j => negBit T s r j)
    (anyBit fun j => posBit T s r j)

/-- The mean of the per-subset means: each subset's rows summed from 0 and divided by 4096, the three quotients
    summed from 0 and divided by 3. -/
def meanOfMeans (L : Fin 3 → Fin 4096 → EReal) : EReal :=
  Ideal.div (lit 0x00000000#32 + ∑ s : Fin 3,
    Ideal.div (lit 0x00000000#32 + ∑ r : Fin 4096, L s r) (lit 0x45800000#32)) (lit 0x40400000#32)

/-- The mean over all 12288 rows at once: summed from 0 and divided by 12288. -/
def meanOfAll (L : Fin 3 → Fin 4096 → EReal) : EReal :=
  Ideal.div (lit 0x00000000#32 + ∑ s : Fin 3, ∑ r : Fin 4096, L s r) (lit 0x46400000#32)

/-- The loss as a function of the reshaped arrays. -/
def loss (E : (⟨3, ![3, 4096, 128]⟩ : Shape).Idx → EReal) (T : (⟨2, ![3, 4096]⟩ : Shape).Idx → BitVec 32) : EReal :=
  meanOfMeans (lossAt E T)

end Cert.HardTriplet

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibWordsAt.lean ====
/-
  Words and bits read at an index, and two float words as extended reals.

  The integer operations of a vector (and, exclusive or, sum, comparison) read at an index are the word
  operations on the entries; a select between equal conditions and equal branches is equal; the 32-bit float
  word of 1.0 denotes the extended real 1 and the word of −∞ denotes the bottom element.
-/
import Idealize.ShloMosaic.Lib.ValueIdx
import Idealize.ShloMosaic.PureOps.Ideal.Laws

noncomputable section

namespace Idealize.ShloMosaic.WordsAt

open Idealize.ShloMosaic

variable {s : Shape} {w : Nat}

/-- A vector's bitwise and at an index is the and of the entries. -/
theorem andi_apply (x y : IVec s w) (i : s.Idx) : andi x y i = IntOp.andi (x i) (y i) := rfl
/-- A vector's exclusive or at an index is the exclusive or of the entries. -/
theorem xori_apply (x y : IVec s w) (i : s.Idx) : xori x y i = IntOp.xori (x i) (y i) := rfl
/-- A vector's integer sum at an index is the sum of the entries. -/
theorem addi_apply (x y : IVec s w) (i : s.Idx) : addi x y i = IntOp.addi (x i) (y i) := rfl
/-- A vector's integer comparison at an index compares the entries. -/
theorem cmpi_apply (p : CmpIPredicate) (x y : IVec s w) (i : s.Idx) : cmpi p x y i = IntOp.cmpi p (x i) (y i) := rfl

/-- Selects with equal conditions and equal branches are equal. -/
theorem select_congr {α : Type} {c c' : BitVec 1} {a a' b b' : α} (hc : c = c') (ha : a = a') (hb : b = b') :
    Scalar.select c a b = Scalar.select c' a' b' := by rw [hc, ha, hb]

/-- The 32-bit float word of 1.0 denotes 1. -/
theorem ofBits_one_f32 : Ideal.ofBits .f32 0x3F800000#32 = 1 := by
  simp [Ideal.ofBits, Ideal.ieee]
  first
    | (rw [← EReal.coe_mul]; norm_num; done)
    | (norm_num [← EReal.coe_mul]; done)

/-- The 32-bit float word of −∞ denotes the bottom element. -/
theorem ofBits_neg_inf_f32 : Ideal.ofBits .f32 0xFF800000#32 = ⊥ := by simp [Ideal.ofBits, Ideal.ieee]

end Idealize.ShloMosaic.WordsAt

end
-- ==== Proof.KerMask.lean ====
/-
  The three masks of one grid point, read at an entry.

  Entry (p, j) of the agreement mask compares the label of query row p with the label of key row j. The
  positive mask drops from it the one column that is the query row itself: the body numbers the rows and the
  columns of the block, shifts the row numbers by 256 times the tile's position, and compares; for a row
  below 256, a tile position below 16 and a column below 4096 nothing wraps, so the comparison is the
  equality of the column with the row's place in the subset. The negative mask is the agreement mask flipped.
-/
import proofs.«141028_j22084721836475_2_alg».proof.Proof.Gen.KernelIdeal.Skeleton
import proofs.«141028_j22084721836475_2_alg».proof.Proof.Spec
import proofs.«141028_j22084721836475_2_alg».proof.Proof.LibRowOps
import proofs.«141028_j22084721836475_2_alg».proof.Proof.LibWordsAt
import Idealize.ShloMosaic.Lib.ValueLayout
import Idealize.ShloMosaic.Lib.Pipeline.Value

noncomputable section

open scoped BigOperators

namespace Cert.HardTriplet.Ker

open Cert.KernelIdeal Cert.KernelIdeal.Gen Cert.HardTriplet Idealize.ShloMosaic Idealize.ShloMosaic.ValueIdx
  Idealize.ShloMosaic.WordsAt

/-- Column j against row p shifted by 256·c, as 32-bit words: equal exactly when j = 256·c + p, since
    nothing wraps for c < 16, p < 256, j < 4096. -/
theorem eye_word (c p j : Nat) (hc : c < 16) (hp : p < 256) (hj : j < 4096) :
    IntOp.cmpi .eq (BitVec.ofNat 32 j) (IntOp.addi (BitVec.ofNat 32 p) (Scalar.muli (BitVec.ofNat 32 c) 256#32))
      = if j = c * 256 + p then 1#1 else 0#1 := by
  have h : IntOp.addi (BitVec.ofNat 32 p) (Scalar.muli (BitVec.ofNat 32 c) 256#32) = BitVec.ofNat 32 (c * 256 + p) := by
    apply BitVec.eq_of_toNat_eq
    show (BitVec.ofNat 32 p + BitVec.ofNat 32 c * 256#32).toNat = _
    rw [BitVec.toNat_add, BitVec.toNat_mul, BitVec.toNat_ofNat, BitVec.toNat_ofNat, BitVec.toNat_ofNat,
      BitVec.toNat_ofNat]
    simp only [Nat.reducePow]
    omega
  rw [h]
  show BitVec.ofBool (BitVec.ofNat 32 j == BitVec.ofNat 32 (c * 256 + p)) = _
  by_cases e : j = c * 256 + p
  · rw [if_pos e, e, beq_self_eq_true]; rfl
  · rw [if_neg e]
    have hne : (BitVec.ofNat 32 j == BitVec.ofNat 32 (c * 256 + p)) = false := by
      rw [beq_eq_false_iff_ne]
      intro hh
      have h2 := congrArg BitVec.toNat hh
      rw [BitVec.toNat_ofNat, BitVec.toNat_ofNat] at h2
      simp only [Nat.reducePow] at h2
      omega
    rw [hne]; rfl

/-- Entry (p, j) of the agreement mask: the labels of query row p and key row j compared. -/
theorem same_apply (x2 : Vec Ideal S1x256x1 .i32) (x3 : Vec Ideal S1x1x4096 .i32) (p : Fin 256) (j : Fin 4096) :
    k0_pay3 (F := Ideal) x2 x3 (ix2 p j)
      = IntOp.cmpi .eq (x2 (ix3 (0 : Fin 1) p (0 : Fin 1))) (x3 (ix3 (0 : Fin 1) (0 : Fin 1) j)) := by
  unfold k0_pay3
  rw [cmpi_apply, RowOps.colBcast_apply, broadcastTo_1b_ab_apply, shapeCast_1ab_ab_apply, shapeCast_1ab_ab_apply]

/-- Entry (p, j) of the positive mask: the labels agree and column j is not row p's own place r in the subset. -/
theorem pos_apply (i : grid0.Coords) (x2 : Vec Ideal S1x256x1 .i32) (x3 : Vec Ideal S1x1x4096 .i32)
    (p : Fin 256) (j r : Fin 4096) (hr : r.val = (i 1).val * 256 + p.val) :
    k0_pay4 (F := Ideal) i x2 x3 (ix2 p j)
      = IntOp.andi (k0_pay3 (F := Ideal) x2 x3 (ix2 p j)) (IntOp.xori (eyeBit r j) 1#1) := by
  unfold k0_pay4
  dsimp only
  rw [andi_apply, xori_apply, cmpi_apply, addi_apply, iota_single_apply, iota_single_apply]
  show IntOp.andi _ (IntOp.xori (IntOp.cmpi .eq (BitVec.ofNat 32 j.val)
    (IntOp.addi (BitVec.ofNat 32 p.val) (Scalar.muli (BitVec.ofNat 32 (i 1).val) 256#32))) 1#1) = _
  have hc : (i 1).val < 16 := (i 1).isLt
  rw [eye_word _ _ _ hc p.isLt j.isLt]
  unfold eyeBit
  have e : (j = r) = (j.val = (i 1).val * 256 + p.val) := by rw [← hr]; exact propext Fin.ext_iff
  simp only [e]

/-- Entry (p, j) of the negative mask: the agreement bit flipped. -/
theorem neg_apply (x2 : Vec Ideal S1x256x1 .i32) (x3 : Vec Ideal S1x1x4096 .i32) (p : Fin 256) (j : Fin 4096) :
    k0_pay5 (F := Ideal) x2 x3 (ix2 p j) = IntOp.xori (k0_pay3 (F := Ideal) x2 x3 (ix2 p j)) 1#1 := by
  unfold k0_pay5
  rfl

end Cert.HardTriplet.Ker

end
-- ==== Proof.KerMax.lean ====
/-
  The two masked row maxima of one grid point.

  For each query row p the body replaces the entries a mask drops by the stand-in −1e30 and takes the maximum
  over the 4096 columns from −∞: once under the negative mask (kept as a column) and once under the positive
  mask (kept as a vector). Each is the masked maximum of row p of the similarity block.
-/
import proofs.«141028_j22084721836475_2_alg».proof.Proof.Gen.KernelIdeal.Skeleton
import proofs.«141028_j22084721836475_2_alg».proof.Proof.Spec
import proofs.«141028_j22084721836475_2_alg».proof.Proof.LibRowOps

noncomputable section

open scoped BigOperators

namespace Cert.HardTriplet.Ker

open Cert.KernelIdeal Cert.KernelIdeal.Gen Cert.HardTriplet Idealize.ShloMosaic Idealize.ShloMosaic.ValueIdx

/-- Row p's maximum over the negatives, read in the column the body keeps it in. -/
theorem negMax_apply (v9 : Vec Ideal S256x4096 .f32) (x2 : Vec Ideal S1x256x1 .i32) (x3 : Vec Ideal S1x1x4096 .i32)
    (p : Fin 256) :
    k0_pay6 (F := Ideal) v9 x2 x3 (ix2 p (0 : Fin 1))
      = maskedMax (fun j => v9 (ix2 p j)) (fun j => k0_pay5 (F := Ideal) x2 x3 (ix2 p j)) := by
  unfold k0_pay6
  refine (RowOps.colCast_apply _ _ p).trans ?_
  refine (RowOps.rowMax_vector _ _ _ _ _ p).trans ?_
  rfl

/-- Row p's maximum over the positives. -/
theorem posMax_apply (i : grid0.Coords) (v9 : Vec Ideal S256x4096 .f32) (x2 : Vec Ideal S1x256x1 .i32)
    (x3 : Vec Ideal S1x1x4096 .i32) (p : Fin 256) :
    k0_pay7 (F := Ideal) i v9 x2 x3 (ix1 p)
      = maskedMax (fun j => v9 (ix2 p j)) (fun j => k0_pay4 (F := Ideal) i x2 x3 (ix2 p j)) := by
  unfold k0_pay7
  refine (RowOps.rowMax_vector _ _ _ _ _ p).trans ?_
  rfl

end Cert.HardTriplet.Ker

end
-- ==== Proof.KerAny.lean ====
/-
  Whether a row has a positive, read off a maximum.

  The body takes the row maximum, from −∞, of the indicator that is 1.0 on the columns a mask keeps and 0.0
  elsewhere, and asks whether it exceeds 0.0. The maximum exceeds 0 exactly when some entry does, that is when
  the mask keeps a column.
-/
import proofs.«141028_j22084721836475_2_alg».proof.Proof.Spec
import proofs.«141028_j22084721836475_2_alg».proof.Proof.LibWordsAt

noncomputable section

open scoped BigOperators

namespace Cert.HardTriplet.Ker

open Cert.HardTriplet Idealize.ShloMosaic Idealize.ShloMosaic.ValueIdx Idealize.ShloMosaic.WordsAt

/-- The indicator's row maximum from −∞ is above 0 exactly when the mask keeps a column. -/
theorem any_of_max (msk : Fin 4096 → BitVec 1) (m : EReal)
    (hm : m = (Finset.univ : Finset (Fin 4096)).fold max (lit 0xFF800000#32)
      (fun j => Scalar.select (msk j) (lit 0x3F800000#32) (lit 0x00000000#32))) :
    Ideal.cmp .ogt m (lit 0x00000000#32) = anyBit msk := by
  subst hm
  have key : (lit 0x00000000#32 < (Finset.univ : Finset (Fin 4096)).fold max (lit 0xFF800000#32)
      (fun j => Scalar.select (msk j) (lit 0x3F800000#32) (lit 0x00000000#32))) ↔ ∃ j, msk j = 1#1 := by
    rw [Finset.lt_fold_max]
    show (Ideal.ofBits .f32 0x00000000#32 < Ideal.ofBits .f32 0xFF800000#32 ∨ ∃ x ∈ (Finset.univ : Finset (Fin 4096)),
      Ideal.ofBits .f32 0x00000000#32
        < Scalar.select (msk x) (Ideal.ofBits .f32 0x3F800000#32) (Ideal.ofBits .f32 0x00000000#32)) ↔ _
    rw [Ideal.ofBits_zero_f32, ofBits_neg_inf_f32, ofBits_one_f32]
    constructor
    · rintro (h0 | ⟨x, _, hx⟩)
      · exact absurd h0 not_lt_bot
      · by_contra hne
        have hz : msk x = 0#1 := eq_zero_of_ne_one fun e => hne ⟨x, e⟩
        rw [hz, select_zero] at hx
        exact lt_irrefl _ hx
    · rintro ⟨j, hj⟩
      exact Or.inr ⟨j, Finset.mem_univ _, by rw [hj, select_one]; exact zero_lt_one⟩
  unfold anyBit
  show BitVec.ofBool (decide (lit 0x00000000#32 < _)) = _
  by_cases h : ∃ j, msk j = 1#1
  · rw [if_pos h, decide_eq_true (key.mpr h)]; rfl
  · rw [if_neg h, decide_eq_false (fun hh => h (key.mp hh))]; rfl

end Cert.HardTriplet.Ker

end
-- ==== Proof.KerRow.lean ====
/-
  One output row of a grid point's block is the row loss of the specification.

  The stored block is a column: entry p is chosen by whether row p has a positive. That bit is read off the
  row maximum of the positives' 0/1 indicator; the two sums run over the 4096 columns of row p, the first over
  the positives whose similarity is below the negatives' masked maximum plus 0.1 (summing 1 − similarity),
  the second over the negatives whose similarity is above max(0.6, the positives' masked maximum) − 0.1
  (summing the similarity). With the similarity block, the masks and the two masked maxima read at their
  entries, this is the specification's row loss of query row p, whose place in the subset is
  256 · (tile position) + p.
-/
import proofs.«141028_j22084721836475_2_alg».proof.Proof.KerSim
import proofs.«141028_j22084721836475_2_alg».proof.Proof.KerMask
import proofs.«141028_j22084721836475_2_alg».proof.Proof.KerMax
import proofs.«141028_j22084721836475_2_alg».proof.Proof.KerAny

noncomputable section

open scoped BigOperators

namespace Cert.HardTriplet.Ker

open Cert.KernelIdeal Cert.KernelIdeal.Gen Cert.HardTriplet Idealize.ShloMosaic Idealize.ShloMosaic.ValueIdx
  Idealize.ShloMosaic.WordsAt

/-- Entry p of the stored column, from the similarity block, the two masks and the two masked maxima: the
    specification's row loss of row p of the block. -/
theorem out_apply (v9 : Vec Ideal S256x4096 .f32) (v24 v25 : IVec S256x4096 1) (v31 : FVec Ideal S256x1 .f32)
    (v32 : FVec Ideal S256 .f32) (p : Fin 256)
    (h31 : v31 (ix2 p (0 : Fin 1)) = maskedMax (fun j => v9 (ix2 p j)) (fun j => v25 (ix2 p j)))
    (h32 : v32 (ix1 p) = maskedMax (fun j => v9 (ix2 p j)) (fun j => v24 (ix2 p j))) :
    k0_pay1 (F := Ideal) v9 v24 v25 v31 v32 (ix3 (0 : Fin 1) p (0 : Fin 1))
      = rowLoss (fun j => v9 (ix2 p j)) (fun j => v24 (ix2 p j)) (fun j => v25 (ix2 p j))
          (anyBit fun j => v24 (ix2 p j)) := by
  unfold k0_pay1 rowLoss
  refine (shapeCast_ab_1ab_apply _ _ (0 : Fin 1) p (0 : Fin 1)).trans ?_
  refine (select_apply _ _ _ _).trans ?_
  refine select_congr ?_ ?_ rfl
  · -- the row has a positive
    refine (RowOps.colCast_apply _ _ p).trans ?_
    refine (cmpf_apply _ _ _ _).trans ?_
    refine (Ideal.cmpf_def _ _ _).trans ?_
    refine any_of_max _ _ ?_
    exact RowOps.rowMax_vector _ _ _ _ _ p
  · refine (addf_apply _ _ _).trans ?_
    refine congrArg₂ (· + ·) ?_ ?_
    · -- the positives' sum
      refine (RowOps.colCast_apply _ _ p).trans ?_
      refine (RowOps.rowSum_vector _ _ _ _ _ p).trans ?_
      refine Finset.sum_congr rfl fun j _ => ?_
      refine (select_apply _ _ _ _).trans ?_
      refine select_congr ?_ rfl rfl
      refine (andi_apply _ _ _).trans ?_
      refine congrArg (IntOp.andi (v24 (ix2 p j))) ?_
      refine (cmpf_apply _ _ _ _).trans ?_
      refine (Ideal.cmpf_def _ _ _).trans ?_
      refine congrArg (Ideal.cmp .olt (v9 (ix2 p j))) ?_
      refine (RowOps.colBcast_apply _ _ p j).trans ?_
      refine (addf_apply _ _ _).trans ?_
      exact congrArg (· + lit 0x3DCCCCCD#32) h31
    · -- the negatives' sum
      refine (RowOps.colCast_apply _ _ p).trans ?_
      refine (RowOps.rowSum_vector _ _ _ _ _ p).trans ?_
      refine Finset.sum_congr rfl fun j _ => ?_
      refine (select_apply _ _ _ _).trans ?_
      refine select_congr ?_ rfl rfl
      refine (andi_apply _ _ _).trans ?_
      refine congrArg (IntOp.andi (v25 (ix2 p j))) ?_
      refine (cmpf_apply _ _ _ _).trans ?_
      refine (Ideal.cmpf_def _ _ _).trans ?_
      refine congrArg (Ideal.cmp .ogt (v9 (ix2 p j))) ?_
      refine (RowOps.colBcast_apply _ _ p j).trans ?_
      refine (subf_apply _ _ _).trans ?_
      refine congrArg (· - lit 0x3DCCCCCD#32) ?_
      refine (maximumf_apply _ _ _).trans ?_
      refine congrArg (max (lit 0x3F19999A#32)) ?_
      exact (RowOps.colCast_apply _ _ p).trans h32

/-- Row p of the block a grid point stores is the row loss of query row r = 256 · (tile position) + p of the
    subset: its similarities with the 4096 key rows, its positive and negative masks, and whether it has a
    positive. -/
theorem block_eq (i : grid0.Coords) (x0 : Vec Ideal S1x256x128 .f32) (x1 : Vec Ideal S1x4096x128 .f32)
    (x2 : Vec Ideal S1x256x1 .i32) (x3 : Vec Ideal S1x1x4096 .i32) (p : Fin 256) (r : Fin 4096)
    (hr : r.val = (i 1).val * 256 + p.val) :
    k0_pay1 (F := Ideal) (k0_pay2 x0 x1) (k0_pay4 i x2 x3) (k0_pay5 x2 x3) (k0_pay6 (k0_pay2 x0 x1) x2 x3)
        (k0_pay7 i (k0_pay2 x0 x1) x2 x3) (ix3 (0 : Fin 1) p (0 : Fin 1))
      = rowLoss (fun j => ∑ k : Fin 128, x0 (ix3 (0 : Fin 1) p k) * x1 (ix3 (0 : Fin 1) j k))
          (fun j => IntOp.andi (IntOp.cmpi .eq (x2 (ix3 (0 : Fin 1) p (0 : Fin 1))) (x3 (ix3 (0 : Fin 1) (0 : Fin 1) j)))
            (IntOp.xori (eyeBit r j) 1#1))
          (fun j => IntOp.xori (IntOp.cmpi .eq (x2 (ix3 (0 : Fin 1) p (0 : Fin 1))) (x3 (ix3 (0 : Fin 1) (0 : Fin 1) j))) 1#1)
          (anyBit fun j => IntOp.andi (IntOp.cmpi .eq (x2 (ix3 (0 : Fin 1) p (0 : Fin 1))) (x3 (ix3 (0 : Fin 1) (0 : Fin 1) j)))
            (IntOp.xori (eyeBit r j) 1#1)) := by
  have hx : (fun j : Fin 4096 => k0_pay2 (F := Ideal) x0 x1 (ix2 p j))
      = fun j => ∑ k : Fin 128, x0 (ix3 (0 : Fin 1) p k) * x1 (ix3 (0 : Fin 1) j k) :=
    funext fun j => sim_apply x0 x1 p j
  have hpos : (fun j : Fin 4096 => k0_pay4 (F := Ideal) i x2 x3 (ix2 p j))
      = fun j => IntOp.andi (IntOp.cmpi .eq (x2 (ix3 (0 : Fin 1) p (0 : Fin 1))) (x3 (ix3 (0 : Fin 1) (0 : Fin 1) j)))
          (IntOp.xori (eyeBit r j) 1#1) :=
    funext fun j => (pos_apply i x2 x3 p j r hr).trans
      (congrArg (fun b => IntOp.andi b (IntOp.xori (eyeBit r j) 1#1)) (same_apply x2 x3 p j))
  have hneg : (fun j : Fin 4096 => k0_pay5 (F := Ideal) x2 x3 (ix2 p j))
      = fun j => IntOp.xori (IntOp.cmpi .eq (x2 (ix3 (0 : Fin 1) p (0 : Fin 1))) (x3 (ix3 (0 : Fin 1) (0 : Fin 1) j))) 1#1 :=
    funext fun j => (neg_apply x2 x3 p j).trans (congrArg (fun b => IntOp.xori b 1#1) (same_apply x2 x3 p j))
  refine (out_apply (k0_pay2 x0 x1) (k0_pay4 i x2 x3) (k0_pay5 x2 x3) (k0_pay6 (k0_pay2 x0 x1) x2 x3)
    (k0_pay7 i (k0_pay2 x0 x1) x2 x3) p (negMax_apply _ x2 x3 p) (posMax_apply i _ x2 x3 p)).trans ?_
  rw [hx, hpos, hneg]

end Cert.HardTriplet.Ker

end
-- ==== Proof.KValBlock.lean ====
/-
  What the body leaves in the output block, as one pure function of the four input blocks.

  The body's run finds one piece for the output block: a store, through the whole block, of the row losses
  computed from the similarity block read back from the scratch buffer, which itself holds one piece, the
  similarity block of the two loaded embedding blocks. Reading the pieces back gives the row-loss term of the
  loaded blocks, with the similarity block in the place of its read-back.
-/
import proofs.«141028_j22084721836475_2_alg».proof.Proof.KBody
import proofs.«141028_j22084721836475_2_alg».proof.Proof.Spec
import Idealize.ShloMosaic.Lib.Pipeline.Value

set_option maxRecDepth 16384

noncomputable section

open scoped BigOperators

namespace Cert.HardTriplet.Ker

open Cert.KernelIdeal Cert.KernelIdeal.Gen Cert.KernelIdeal.Hand Cert.HardTriplet
open Idealize.ShloMosaic Idealize.ShloMosaic.ValueIdx Idealize.ShloMosaic.TcCoe Idealize.ShloMosaic.Tactic
open Idealize.SL Idealize.SL.Sem
open Idealize.ShloMosaic.Pipeline (Dat Cfg Window)

variable {F : FTy → Type} [FloatOps F]

/-- The zero offsets of a rank-3 block, however spelt. -/
theorem hz3 : (![0, 0, 0] : Fin 3 → Nat) = fun _ => 0 := funext fun a => by fin_cases a <;> rfl
/-- The zero offsets of a rank-2 block. -/
theorem hz2 : (![0, 0] : Fin 2 → Nat) = fun _ => 0 := funext fun a => by fin_cases a <;> rfl

/-- The output block after the body, on any whole buffers holding the four input blocks: the row-loss term of
    the blocks. -/
theorem outBlk_eq (c : Dev nD) (i : grid0.Coords)
    (arg2 : Memref sig .tc .vmem S1x256x128 .f32) (harg2 : arg2.IsWhole) (arg3 : Memref sig .tc .vmem S1x4096x128 .f32) (harg3 : arg3.IsWhole)
    (arg4 : Memref sig .tc .vmem S1x256x1 .i32) (harg4 : arg4.IsWhole) (arg5 : Memref sig .tc .vmem S1x1x4096 .i32) (harg5 : arg5.IsWhole)
    (arg6 : Memref sig .tc .vmem S1x256x1 .f32) (harg6 : arg6.IsWhole) (arg7 : Memref sig .tc .vmem S256x4096 .f32) (harg7 : arg7.IsWhole)
    (x0 : Vec F S1x256x128 .f32) (x1 : Vec F S1x4096x128 .f32) (x2 : Vec F S1x256x1 .i32) (x3 : Vec F S1x1x4096 .i32) :
    outBlk c i arg2 harg2 arg3 harg3 arg4 harg4 arg5 harg5 arg6 harg6 arg7 harg7 x0 x1 x2 x3
      = k0_pay1 (k0_pay2 x0 x1) (k0_pay4 i x2 x3) (k0_pay5 x2 x3) (k0_pay6 (k0_pay2 x0 x1) x2 x3)
          (k0_pay7 i (k0_pay2 x0 x1) x2 x3) := by
  unfold outBlk
  rw [View.read_writes_eq_canon _ _ _ (cover4 c i arg2 harg2 arg3 harg3 arg4 harg4 arg5 harg5 arg6 harg6 arg7 harg7 x0 x1 x2 x3)]
  unfold kernelRun
  dsimp only
  sl_unfold_words
  rw [View.canon_unit_zero hz3]
  rw [View.readCov_unit_zero (S := S256x4096) arg7.view hz2]
  simp only [View.readAt_eq_ld, harg2.read_unread, harg3.read_unread, harg4.read_unread,
    harg5.read_unread, View.ld_unit_zero (S := S1x256x128) hz3, View.ld_unit_zero (S := S1x4096x128) hz3,
    View.ld_unit_zero (S := S1x256x1) hz3, View.ld_unit_zero (S := S1x1x4096) hz3]

variable (m : (ℓ : Loc nD τ sig) → Buf (Elt F) ℓ)

/-- The output block after point t: the row-loss term of the four input blocks at t. -/
theorem outAt_eq (c : Dev nD) (t : Fin cfg0.N) :
    outAt m c t
      = k0_pay1 (k0_pay2 (iblk m c 0 t) (iblk m c 1 t)) (k0_pay4 (grid0.coords t) (iblk m c 2 t) (iblk m c 3 t))
          (k0_pay5 (iblk m c 2 t) (iblk m c 3 t)) (k0_pay6 (k0_pay2 (iblk m c 0 t) (iblk m c 1 t)) (iblk m c 2 t) (iblk m c 3 t))
          (k0_pay7 (grid0.coords t) (k0_pay2 (iblk m c 0 t) (iblk m c 1 t)) (iblk m c 2 t) (iblk m c 3 t)) := by
  unfold outAt
  exact outBlk_eq c (grid0.coords t) (ms0 t) (hs0 t) (ms1 t) (hs1 t) (ms2 t) (hs2 t) (ms3 t) (hs3 t) (ms4 t) (hs4 t) scM
    (Memref.isWhole_whole _) (iblk m c 0 t) (iblk m c 1 t) (iblk m c 2 t) (iblk m c 3 t)

end Cert.HardTriplet.Ker

end
-- ==== Proof.KValIn.lean ====
/-
  The four input blocks of a grid point, read at an entry of the argument arrays.

  Before the region the embeddings are viewed as 3 subsets of 4096 rows and the labels as 3 subsets of 4096
  words, the labels once as columns and once as rows. Point t of the 3 × 16 grid is subset t / 16 and tile
  t mod 16: its query block is rows 256·(t mod 16) … +255 of the subset, its key block all 4096 rows, its two
  label blocks the same rows' labels as a column and all the subset's labels as a row. An entry of a block
  sits in its array, on each axis, at the block's position times the block's extent plus its own coordinate.
-/
import proofs.«141028_j22084721836475_2_alg».proof.Proof.KBody
import proofs.«141028_j22084721836475_2_alg».proof.Proof.Spec
import Idealize.ShloMosaic.Lib.Pipeline.Value

set_option maxRecDepth 16384

noncomputable section

open scoped BigOperators

namespace Cert.HardTriplet.Ker

open Cert.KernelIdeal Cert.KernelIdeal.Gen Cert.KernelIdeal.Hand Cert.HardTriplet
open Idealize.ShloMosaic Idealize.ShloMosaic.ValueIdx Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

/-- The embeddings as the region finds them: the argument viewed as 3 × 4096 × 128. -/
theorem V_v0 (c : Dev nD) : (V m c main_v0 : S3x4096x128.Idx → Elt F .f32)
    = shapeCast S3x4096x128 (m ((c : Thread nD τ).loc main_arg0)) shapeCasts_S12288x128_S3x4096x128 := by
  dsimp only [V, V0, hostOps0]
  simp only [List.flatten_cons, List.flatten_nil, List.append_nil]
  after_results
  rfl

/-- The labels as columns: the argument viewed as 3 × 4096, each word stood up as a 1-entry row. -/
theorem V_v2 (c : Dev nD) : (V m c main_v2 : S3x4096x1.Idx → Elt F .i32)
    = broadcastInDim S3x4096x1 ![0, 1] bcast_S3x4096_S3x4096x1_0_1
        (shapeCast S3x4096 (m ((c : Thread nD τ).loc main_arg1)) shapeCasts_S12288_S3x4096) := by
  dsimp only [V, V0, hostOps0]
  simp only [List.flatten_cons, List.flatten_nil, List.append_nil]
  after_results
  rfl

/-- The labels as rows: the same view, each subset laid out as one row. -/
theorem V_v3 (c : Dev nD) : (V m c main_v3 : S3x1x4096.Idx → Elt F .i32)
    = broadcastInDim S3x1x4096 ![0, 2] bcast_S3x4096_S3x1x4096_0_2
        (shapeCast S3x4096 (m ((c : Thread nD τ).loc main_arg1)) shapeCasts_S12288_S3x4096) := by
  dsimp only [V, V0, hostOps0]
  simp only [List.flatten_cons, List.flatten_nil, List.append_nil]
  after_results
  rfl

/-- The grid's coordinates and the five index maps at point t, decided over the 48 points: subset t / 16,
    tile t mod 16. -/
theorem idx_facts : ∀ t : Fin cfg0.N,
    (grid0.coords t 0).val = t.val / 16 ∧ (grid0.coords t 1).val = t.val % 16
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = t.val % 16 ∧ win0_4.index t (2 : Fin 3) = 0 :=
  (by decide +kernel : ∀ t : Fin grid0.N, _)

/-- The query block: its row p is row r = 256·(t mod 16) + p of subset s = t / 16. -/
theorem blk0_apply (c : Dev nD) (t : Fin cfg0.N) (p : Fin 256) (k : Fin 128) (s : Fin 3) (r : Fin 4096)
    (hs : s.val = t.val / 16) (hr : r.val = t.val % 16 * 256 + p.val) :
    iblk m c 0 t (ix3 (0 : Fin 1) p k) = V m c main_v0 (ix3 s r k) := by
  show V m c main_v0 (((cfg0.win 0).blk t).view.emb (ix3 (0 : Fin 1) p k)) = _
  refine congrArg (V m c main_v0) ?_
  obtain ⟨-, -, e0, e1, e2, -⟩ := idx_facts t
  funext a; apply Fin.ext
  match a with
  | ⟨0, _⟩ => show win0_0.index t (0 : Fin 3) * 1 + 1 * 0 = s.val; omega
  | ⟨1, _⟩ => show win0_0.index t (1 : Fin 3) * 256 + 1 * p.val = r.val; omega
  | ⟨2, _⟩ => show win0_0.index t (2 : Fin 3) * 128 + 1 * k.val = k.val; omega

/-- The key block: its row j is row j of subset s = t / 16. -/
theorem blk1_apply (c : Dev nD) (t : Fin cfg0.N) (j : Fin 4096) (k : Fin 128) (s : Fin 3) (hs : s.val = t.val / 16) :
    iblk m c 1 t (ix3 (0 : Fin 1) j k) = V m c main_v0 (ix3 s j k) := by
  show V m c main_v0 (((cfg0.win 1).blk t).view.emb (ix3 (0 : Fin 1) j k)) = _
  refine congrArg (V m c main_v0) ?_
  obtain ⟨-, -, -, -, -, e0, e1, e2, -⟩ := idx_facts t
  funext a; apply Fin.ext
  match a with
  | ⟨0, _⟩ => show win0_1.index t (0 : Fin 3) * 1 + 1 * 0 = s.val; omega
  | ⟨1, _⟩ => show win0_1.index t (1 : Fin 3) * 4096 + 1 * j.val = j.val; omega
  | ⟨2, _⟩ => show win0_1.index t (2 : Fin 3) * 128 + 1 * k.val = k.val; omega

/-- The query rows' labels: entry p is the label of row r of subset s. -/
theorem blk2_apply (c : Dev nD) (t : Fin cfg0.N) (p : Fin 256) (s : Fin 3) (r : Fin 4096)
    (hs : s.val = t.val / 16) (hr : r.val = t.val % 16 * 256 + p.val) :
    iblk m c 2 t (ix3 (0 : Fin 1) p (0 : Fin 1)) = V m c main_v2 (ix3 s r (0 : Fin 1)) := by
  show V m c main_v2 (((cfg0.win 2).blk t).view.emb (ix3 (0 : Fin 1) p (0 : Fin 1))) = _
  refine congrArg (V m c main_v2) ?_
  obtain ⟨-, -, -, -, -, -, -, -, e0, e1, e2, -⟩ := idx_facts t
  funext a; apply Fin.ext
  match a with
  | ⟨0, _⟩ => show win0_2.index t (0 : Fin 3) * 1 + 1 * 0 = s.val; omega
  | ⟨1, _⟩ => show win0_2.index t (1 : Fin 3) * 256 + 1 * p.val = r.val; omega
  | ⟨2, _⟩ => show win0_2.index t (2 : Fin 3) * 1 + 1 * 0 = 0; omega

/-- The subset's labels as a row: entry j is the label of row j of subset s. -/
theorem blk3_apply (c : Dev nD) (t : Fin cfg0.N) (j : Fin 4096) (s : Fin 3) (hs : s.val = t.val / 16) :
    iblk m c 3 t (ix3 (0 : Fin 1) (0 : Fin 1) j) = V m c main_v3 (ix3 s (0 : Fin 1) j) := by
  show V m c main_v3 (((cfg0.win 3).blk t).view.emb (ix3 (0 : Fin 1) (0 : Fin 1) j)) = _
  refine congrArg (V m c main_v3) ?_
  obtain ⟨-, -, -, -, -, -, -, -, -, -, -, e0, e1, e2, -⟩ := idx_facts t
  funext a; apply Fin.ext
  match a with
  | ⟨0, _⟩ => show win0_3.index t (0 : Fin 3) * 1 + 1 * 0 = s.val; omega
  | ⟨1, _⟩ => show win0_3.index t (1 : Fin 3) * 1 + 1 * 0 = 0; omega
  | ⟨2, _⟩ => show win0_3.index t (2 : Fin 3) * 4096 + 1 * j.val = j.val; omega

end Cert.HardTriplet.Ker

end
-- ==== Proof.KValue.lean ====
/-
  From the blocks to the array: the row losses the kernel's region leaves.

  Point t of the 3 × 16 grid writes back the 256 row losses of tile t mod 16 of subset t / 16. With the query
  block, the key block and the two label blocks read at their entries of the argument arrays, row p of what the
  body leaves is the specification's loss of row 256·(t mod 16) + p of that subset; so what point t writes back
  is block t of one function of the arguments, the loss of every row of every subset. The 48 blocks tile the
  3 × 4096 × 1 array — row r of subset s lies in the block of point 16·s + r / 256 — so after the run the array
  holds that function.
-/
import proofs.«141028_j22084721836475_2_alg».proof.Proof.KBody
import proofs.«141028_j22084721836475_2_alg».proof.Proof.KerRow
import proofs.«141028_j22084721836475_2_alg».proof.Proof.KValBlock
import proofs.«141028_j22084721836475_2_alg».proof.Proof.KValIn
import proofs.«141028_j22084721836475_2_alg».proof.Proof.Spec
import Idealize.ShloMosaic.Lib.Pipeline.Value

set_option maxRecDepth 16384

noncomputable section

open scoped BigOperators

namespace Cert.HardTriplet.Ker

open Cert.KernelIdeal Cert.KernelIdeal.Gen Cert.KernelIdeal.Hand Cert.HardTriplet
open Idealize.ShloMosaic Idealize.ShloMosaic.ValueIdx Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The embeddings viewed as 3 subsets of 4096 rows of 128 entries. -/
abbrev embE (c : Dev nD) : S3x4096x128.Idx → EReal :=
  shapeCast S3x4096x128 (m ((c : Thread nD τ).loc main_arg0)) shapeCasts_S12288x128_S3x4096x128
/-- The labels viewed as 3 subsets of 4096 words. -/
abbrev labT (c : Dev nD) : S3x4096.Idx → BitVec 32 :=
  shapeCast S3x4096 (m ((c : Thread nD τ).loc main_arg1)) shapeCasts_S12288_S3x4096

/-- The loss of every row of every subset, laid out as the 3 × 4096 × 1 array. -/
def lossArr (c : Dev nD) : S3x4096x1.Idx → EReal :=
  fun idx => lossAt (embE m c) (labT m c) (idx 0) (idx 1)

/-- The labels stood up as columns read their word at (s, r, 0). -/
theorem labCol_apply {α : Type} (T : S3x4096.Idx → α) (s : Fin 3) (r : Fin 4096) :
    broadcastInDim S3x4096x1 ![0, 1] bcast_S3x4096_S3x4096x1_0_1 T (ix3 s r (0 : Fin 1)) = T (ix2 s r) := by
  refine broadcastInDim_apply ![0, 1] bcast_S3x4096_S3x4096x1_0_1 T (ix3 s r (0 : Fin 1)) (ix2 s r) fun ax => ?_
  match ax with
  | ⟨0, _⟩ => rfl
  | ⟨1, _⟩ => rfl

/-- The labels laid out as rows read their word at (s, 0, j). -/
theorem labRow_apply {α : Type} (T : S3x4096.Idx → α) (s : Fin 3) (j : Fin 4096) :
    broadcastInDim S3x1x4096 ![0, 2] bcast_S3x4096_S3x1x4096_0_2 T (ix3 s (0 : Fin 1) j) = T (ix2 s j) := by
  refine broadcastInDim_apply ![0, 2] bcast_S3x4096_S3x1x4096_0_2 T (ix3 s (0 : Fin 1) j) (ix2 s j) fun ax => ?_
  match ax with
  | ⟨0, _⟩ => rfl
  | ⟨1, _⟩ => rfl

/-- Row p of what the body leaves at point t is the loss of row r = 256·(t mod 16) + p of subset s = t / 16. -/
theorem outAt_apply (c : Dev nD) (t : Fin cfg0.N) (p : Fin 256) (s : Fin 3) (r : Fin 4096)
    (hs : s.val = t.val / 16) (hr : r.val = t.val % 16 * 256 + p.val) :
    outAt (F := Ideal) m c t (ix3 (0 : Fin 1) p (0 : Fin 1)) = lossAt (embE m c) (labT m c) s r := by
  obtain ⟨-, ei, -⟩ := idx_facts t
  have hi : r.val = (grid0.coords t 1).val * 256 + p.val := by rw [ei]; exact hr
  rw [outAt_eq]
  refine (block_eq (grid0.coords t) _ _ _ _ p r hi).trans ?_
  simp only [blk0_apply m c t p _ s r hs hr, blk1_apply m c t _ _ s hs, blk2_apply m c t p s r hs hr,
    blk3_apply m c t _ s hs]
  rw [V_v0, V_v2, V_v3]
  simp only [labCol_apply, labRow_apply]
  rfl

/-- What the write-back moves of a block at point t, read at an entry: the block at (0, p, 0). -/
theorem cut4_apply {α : Type} (t : Fin cfg0.N) (X : S1x256x1.Idx → α)
    (y : ((cfg0.win 4).xblock (grid0.coords t)).Idx) (p : Fin 256) (hp : p.val = (y 1).val) :
    (cfg0.win 4).cut (grid0.coords t) X y = X (ix3 (0 : Fin 1) p (0 : Fin 1)) := by
  have h0 : (y 0).val < 1 := (y 0).isLt
  have h2 : (y 2).val < 1 := (y 2).isLt
  show X ((cfg0.win 4).xinj (grid0.coords t) y) = _
  refine congrArg X (funext fun a => Fin.ext ?_)
  match a with
  | ⟨0, _⟩ => show (y 0).val = 0; omega
  | ⟨1, _⟩ => show (y 1).val = p.val; omega
  | ⟨2, _⟩ => show (y 2).val = 0; omega

/-- An array read through point t's block, at an entry of the block, is the array at the entry's place. -/
theorem read4_apply (t : Fin cfg0.N) (G : S3x4096x1.Idx → EReal) (y : ((cfg0.win 4).xblock (grid0.coords t)).Idx) :
    ((cfg0.win 4).blk t).view.read (Elt Ideal) G y = G (((cfg0.win 4).blk t).view.emb y) := rfl

/-- What point t writes back is block t of the loss array. -/
theorem flushed4_eq (c : Dev nD) (t : Fin cfg0.N) :
    (dats (F := Ideal) m 0 c).flushed 4 t = ((cfg0.win 4).blk t).view.read (Elt Ideal) (lossArr m c) := by
  show (cfg0.win 4).cut (grid0.coords t) ((dats (F := Ideal) m 0 c).after 4 t) = _
  rw [after_4]
  funext y
  have hN : cfg0.N = 48 := N_0
  have h0 : (y 0).val < 1 := (y 0).isLt
  have h1 : (y 1).val < 256 := (y 1).isLt
  have h2 : (y 2).val < 1 := (y 2).isLt
  obtain ⟨p, hp⟩ : ∃ p : Fin 256, p.val = (y 1).val := ⟨⟨(y 1).val, h1⟩, rfl⟩
  obtain ⟨s, hs⟩ : ∃ s : Fin 3, s.val = t.val / 16 := ⟨⟨t.val / 16, by have := t.isLt; omega⟩, rfl⟩
  obtain ⟨r, hr⟩ : ∃ r : Fin 4096, r.val = t.val % 16 * 256 + p.val :=
    ⟨⟨t.val % 16 * 256 + p.val, by have := p.isLt; omega⟩, rfl⟩
  obtain ⟨-, -, -, -, -, -, -, -, -, -, -, -, -, -, e0, e1, e2⟩ := idx_facts t
  have hemb : ((cfg0.win 4).blk t).view.emb y = ix3 s r (0 : Fin 1) := funext fun a => Fin.ext (by
    match a with
    | ⟨0, _⟩ => show win0_4.index t (0 : Fin 3) * 1 + 1 * (y 0).val = s.val; omega
    | ⟨1, _⟩ => show win0_4.index t (1 : Fin 3) * 256 + 1 * (y 1).val = r.val; omega
    | ⟨2, _⟩ => show win0_4.index t (2 : Fin 3) * 1 + 1 * (y 2).val = 0; omega)
  refine (cut4_apply t (outAt (F := Ideal) m c t) y p hp).trans ?_
  refine (outAt_apply m c t p s r hs hr).trans ?_
  refine Eq.trans ?_ (read4_apply t (lossArr m c) y).symm
  rw [hemb]
  rfl

/-- Every entry of the 3 × 4096 × 1 array lies in the block of some point: row r of subset s in that of
    point 16·s + r / 256. -/
theorem covered4 (i : S3x4096x1.Idx) :
    ∃ t : Fin cfg0.N, (cfg0.win 4).flush t = true ∧ i ∈ ((cfg0.win 4).blk t).view.set := by
  have hN : cfg0.N = 48 := N_0
  have h0 : (i 0).val < 3 := (i 0).isLt
  have h1 : (i 1).val < 4096 := (i 1).isLt
  have h2 : (i 2).val < 1 := (i 2).isLt
  obtain ⟨t, ht⟩ : ∃ t : Fin cfg0.N, t.val = (i 0).val * 16 + (i 1).val / 256 :=
    ⟨⟨(i 0).val * 16 + (i 1).val / 256, by omega⟩, rfl⟩
  refine ⟨t, flush0_4 t, ?_⟩
  show i ∈ ((View.whole main_v4).slice (win0_4.rect t)).set
  rw [View.set_slice_whole, Rect.mem_set_unit]
  obtain ⟨-, -, -, -, -, -, -, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1 ≤ (i 2).val ∧ (i 2).val < win0_4.index t (2 : Fin 3) * 1 + 1; omega

/-- The output array after the run is the loss array. -/
theorem final4 (c : Dev nD) : (dats (F := Ideal) m 0 c).arrAt 4 cfg0.N = lossArr m c :=
  (dats (F := Ideal) m 0 c).arrAt_eq_of_cover 4 (lossArr m c) (fun t _ => flushed4_eq m c t) (fun i => covered4 i)

/-- THE RESULT: after the run, entry (s, r, 0) of the output array is the loss of row r of subset s of the
    argument arrays viewed as 3 subsets. -/
theorem arrAt4_apply (c : Dev nD) (s : Fin 3) (r : Fin 4096) :
    (dats (F := Ideal) m 0 c).arrAt 4 cfg0.N (ix3 s r (0 : Fin 1))
      = lossAt (shapeCast S3x4096x128 (m ((c : Thread nD τ).loc main_arg0)) shapeCasts_S12288x128_S3x4096x128)
          (shapeCast S3x4096 (m ((c : Thread nD τ).loc main_arg1)) shapeCasts_S12288_S3x4096) s r := by
  rw [final4]
  rfl

end Cert.HardTriplet.Ker

end
-- ==== Proof.LibScaledSums.lean ====
/-
  General lemmas on finite sums of extended reals, used where a mean is taken in one step or in two.

  A sum over the index set of a rank-3 array is the triple sum over its coordinates. Multiplication by a real
  constant that is not negative distributes over a finite sum of extended reals, at the infinities too. Hence
  dividing each term of a sum by a positive real c and the sum by a positive real d is dividing the sum of the
  terms by c · d, with no finiteness hypothesis on the terms.
-/
import Idealize.ShloMosaic.PureOps.Ideal
import Idealize.ShloMosaic.Lib.ValueIdx

noncomputable section

open scoped BigOperators

namespace Cert.LibScaledSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- When the last axis has extent one the innermost sum is its one term. -/
theorem sum_idx3_unit {M : Type*} [AddCommMonoid M] {n0 n1 : Nat} (f : (⟨3, ![n0, n1, 1]⟩ : Shape).Idx → M) :
    ∑ i, f i = ∑ a : Fin n0, ∑ b : Fin n1, f (ix3 a b (0 : Fin 1)) := by
  rw [sum_idx3]
  refine Finset.sum_congr rfl fun a _ => Finset.sum_congr rfl fun b _ => ?_
  exact Fin.sum_univ_one _

/-- Multiplying a finite sum of extended reals by a real constant that is not negative multiplies each term. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Each term divided by a positive real c, the sum then divided by a positive real d: the sum of the terms
    divided by c · d. -/
theorem div_sum_div {ι : Type*} (s : Finset ι) (f : ι → EReal) {c d : ℝ} (hc : 0 < c) (hd : 0 < d) :
    Ideal.div (∑ i ∈ s, Ideal.div (f i) (c : EReal)) (d : EReal)
      = Ideal.div (∑ i ∈ s, f i) ((c * d : ℝ) : EReal) := by
  rw [Ideal.div_coe hd.ne', Ideal.div_coe (mul_pos hc hd).ne']
  have h : ∀ i ∈ s, Ideal.div (f i) (c : EReal) = f i * ((1 / c : ℝ) : EReal) :=
    fun i _ => Ideal.div_coe hc.ne' (f i)
  rw [Finset.sum_congr rfl h, ← sum_mul_coe_of_nonneg s f (one_div_nonneg.mpr hc.le), mul_assoc,
    ← EReal.coe_mul, one_div_mul_one_div]

end Cert.LibScaledSums

end
-- ==== Proof.KerTail.lean ====
/-
  The end of the kernel's program, and the one algebraic law between the two programs.

  After the kernel region the program sums the array of row losses Y[3, 4096, 1] over all three axes from 0 and
  divides by 12288: the mean over all 12288 rows at once. The reference takes each subset's mean over its 4096
  rows and then the mean of the three. The two agree on the extended reals with no finiteness hypothesis: 4096, 3
  and 12288 = 4096 · 3 are positive reals, division by a positive real is multiplication by its reciprocal, and
  multiplication by a real that is not negative distributes over sums at the infinities too.
-/
import proofs.«141028_j22084721836475_2_alg».proof.Proof.Gen.KernelIdeal
import proofs.«141028_j22084721836475_2_alg».proof.Proof.Spec
import proofs.«141028_j22084721836475_2_alg».proof.Proof.LibScaledSums
import Idealize.ShloMosaic.PureOps.Ideal.Laws
import Idealize.ShloMosaic.Lib.ValueIdx

noncomputable section

open scoped BigOperators

namespace Cert.HardTriplet.Ker

open Idealize.ShloMosaic Idealize.ShloMosaic.ValueIdx
open Cert.KernelIdeal Cert.KernelIdeal.Gen
open Cert.LibScaledSums

/-! ## The four float words of the two means -/

/-- The word of +0.0 denotes 0. -/
theorem lit_zero : lit 0x00000000#32 = 0 := Ideal.ofBits_zero_f32

/-- The word 0x45800000 (exponent 139, significand 1.0) denotes 2¹² = 4096. -/
theorem lit_4096 : lit 0x45800000#32 = ((4096 : ℝ) : EReal) := by
  simp [lit, Ideal.ofBits, Ideal.ieee, -EReal.coe_mul]; norm_num

/-- The word 0x40400000 (exponent 128, significand 1.5) denotes 3. -/
theorem lit_3 : lit 0x40400000#32 = ((3 : ℝ) : EReal) := by
  simp [lit, Ideal.ofBits, Ideal.ieee, -EReal.coe_mul]; norm_num

/-- The word 0x46400000 (exponent 140, significand 1.5) denotes 1.5 · 2¹³ = 12288. -/
theorem lit_12288 : lit 0x46400000#32 = ((12288 : ℝ) : EReal) := by
  simp [lit, Ideal.ofBits, Ideal.ieee, -EReal.coe_mul]; norm_num

/-! ## The mean of all rows is the mean of the subsets' means -/

/-- Summing all 3 · 4096 rows and dividing by 12288 is dividing each subset's sum by 4096, summing the three
    quotients and dividing by 3 — on the extended reals, whatever the entries: both sides are the total sum times
    the reciprocal of a positive real, and 4096 · 3 = 12288. -/
theorem meanOfAll_eq_meanOfMeans (L : Fin 3 → Fin 4096 → EReal) : meanOfAll L = meanOfMeans L := by
  unfold meanOfAll meanOfMeans
  rw [lit_zero, lit_4096, lit_3, lit_12288]
  simp only [zero_add]
  rw [show ((12288 : ℝ) : EReal) = ((4096 * 3 : ℝ) : EReal) by norm_num]
  exact (div_sum_div Finset.univ (fun s => ∑ r : Fin 4096, L s r) (by norm_num) (by norm_num)).symm

/-! ## The end of the kernel's program -/

/-- The program's last four operations on the array of row losses: the sum over all three axes from 0, divided by
    12288. At its one index the sum is 0 plus the sum over every index of the array, and an index of a
    [3, 4096, 1] array is a subset, a row and the one column. -/
theorem tail_eq (Y : FVec Ideal S3x4096x1 .f32) :
    Host.divf (F := Ideal)
        (Host.reduceAdd (F := Ideal) Y (constant (F := Ideal) S_ .f32 0x00000000#32)
          reducesTo_S3x4096x1_S_d0_1_2 h_S_)
        (constant (F := Ideal) S_ .f32 0x46400000#32)
      = fun _ => meanOfAll (fun s r => Y (ix3 s r (0 : Fin 1))) := by
  funext j
  have hsum : Ideal.hostReduceAdd reducesTo_S3x4096x1_S_d0_1_2 Y (lit 0x00000000#32) j
      = lit 0x00000000#32 + ∑ s : Fin 3, ∑ r : Fin 4096, Y (ix3 s r (0 : Fin 1)) :=
    (Ideal.hostReduceAdd_total _ (fun b => b.elim0) Y _ j).trans (congrArg _ (sum_idx3_unit Y))
  exact congrArg (fun x => Ideal.div x (lit 0x46400000#32)) hsum

end Cert.HardTriplet.Ker

end
-- ==== Proof.KFinal.lean ====
/-
  The kernel program's result, as the loss of the argument arrays.

  The region leaves in the row losses' array the loss of row r of subset s at (s, r, 0); the later host operations sum
  that array from 0 and divide by 12288, which is the mean over all rows at once; and on the extended reals the mean
  over all 12288 rows is the mean over the 3 subsets of each subset's mean over its 4096 rows.
-/
import proofs.«141028_j22084721836475_2_alg».proof.Proof.KPost
import proofs.«141028_j22084721836475_2_alg».proof.Proof.KValue
import proofs.«141028_j22084721836475_2_alg».proof.Proof.KerTail

noncomputable section

namespace Cert.HardTriplet.Ker

open Cert.KernelIdeal Cert.KernelIdeal.Gen Cert.KernelIdeal.Hand Cert.HardTriplet
open Idealize.ShloMosaic Idealize.ShloMosaic.TcCoe Idealize.ShloMosaic.ValueIdx Idealize.SL.Sem

variable (m : (ℓ : Loc nD τ sig) → Buf (Elt Ideal) ℓ) (ρ : Dev nD → PrngReg)

/-- What the later host operations make of the row losses' array is the loss of the reshaped argument arrays. -/
theorem result_eq (c : Dev nD) :
    Host.divf (F := Ideal) (Host.reduceAdd (F := Ideal) ((dats (F := Ideal) m 0 c).arrAt 4 cfg0.N) (constant (F := Ideal) S_ .f32 0x00000000#32) reducesTo_S3x4096x1_S_d0_1_2 h_S_)
        (constant (F := Ideal) S_ .f32 0x46400000#32)
      = fun _ => loss (embE m c) (labT m c) := by
  refine (tail_eq _).trans (funext fun _ => ?_)
  refine (congrArg meanOfAll (funext fun s => funext fun r => arrAt4_apply m c s r)).trans ?_
  exact meanOfAll_eq_meanOfMeans _

/-- The kernel program's run with its result named: the loss of the reshaped argument arrays; the arguments
    unchanged. -/
theorem run : θ_run (defs (F := Ideal)) (onTc (τ := τ) (main (F := Ideal))) ⟨m, fun _ => 0, ρ⟩ (fun r => ∀ c : Dev nD,
      r.2.mem ((c.tc : Thread nD τ).loc main_v6) = (fun _ => loss (embE m c) (labT m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (run_result (F := Ideal) m ρ)

end Cert.HardTriplet.Ker

end
-- ==== Proof.RefMasks.lean ====
/-
  The reference's pairwise quantities, read at an index.

  The reference reshapes the embeddings to 3 × 4096 × 128 and the labels to 3 × 4096, and forms 3 × 4096 × 4096
  arrays indexed by (subset s, row r, column j). Read at (s, r, j): the batched product of the embeddings with
  their transpose is the inner product of rows r and j of subset s; the comparison of the labels broadcast along
  rows and along columns is the "labels agree" bit; the negated comparison of the row counter with the column
  counter is the "not the diagonal" bit, so its conjunction with "labels agree" is the positive mask, and the
  negation of "labels agree" is the negative mask. The fill values of the selects are the broadcast literals.
-/
import proofs.«141028_j22084721836475_2_alg».proof.Proof.RefRead
import proofs.«141028_j22084721836475_2_alg».proof.Proof.Spec

noncomputable section

open scoped BigOperators

namespace Cert.HardTriplet.Ref

open Cert.ReferenceIdeal Cert.ReferenceIdeal.Gen Cert.ReferenceIdeal.Read Idealize.ShloMosaic
  Idealize.ShloMosaic.ValueIdx

/-- The type of the embeddings argument. -/
abbrev X0 : Type := (⟨S12288x128, .f32⟩ : BufTy).Contents (Elt Ideal)
/-- The type of the labels argument. -/
abbrev X1 : Type := (⟨S12288, .i32⟩ : BufTy).Contents (Elt Ideal)

/-- The embeddings reshaped to 3 × 4096 × 128. -/
abbrev emb (x0 : X0) : (⟨3, ![3, 4096, 128]⟩ : Shape).Idx → EReal := val_main_v0 (F := Ideal) x0
/-- The labels reshaped to 3 × 4096. -/
abbrev lab (x1 : X1) : (⟨2, ![3, 4096]⟩ : Shape).Idx → BitVec 32 := val_main_v1 (F := Ideal) x1

/-- The batched product at (s, r, j) is the inner product of rows r and j of subset s. -/
theorem sim_at (x0 : X0) (s : Fin 3) (r j : Fin 4096) :
    val_main_v3 (F := Ideal) x0 (ix3 s r j) = sim (emb x0) s r j := by
  rw [val_main_v3_apply]
  unfold sim
  refine Finset.sum_congr rfl fun k _ => ?_
  rw [val_main_v2_apply]
  have e1 : lidx_main_v3 (ix3 s r j) k = ix3 s r k :=
    funext fun a => Fin.ext (by match a with | ⟨0, _⟩ => rfl | ⟨1, _⟩ => rfl | ⟨2, _⟩ => rfl)
  have e2 : idx_main_v2 (ridx_main_v3 (ix3 s r j) k) = ix3 s j k :=
    funext fun a => Fin.ext (by match a with | ⟨0, _⟩ => rfl | ⟨1, _⟩ => rfl | ⟨2, _⟩ => rfl)
  rw [e1, e2]

/-- The label comparison at (s, r, j) is "the labels of rows r and j of subset s agree". -/
theorem same_at (x1 : X1) (s : Fin 3) (r j : Fin 4096) :
    val_main_v8 (F := Ideal) x1 (ix3 s r j) = sameBit (lab x1) s r j := by
  rw [val_main_v8_apply, val_main_v6_apply, val_main_v7_apply, val_main_v4_apply, val_main_v5_apply]
  have e1 : idx_main_v4 (idx_main_v6 (ix3 s r j)) = ix2 s r :=
    funext fun a => Fin.ext (by match a with | ⟨0, _⟩ => rfl | ⟨1, _⟩ => rfl)
  have e2 : idx_main_v5 (idx_main_v7 (ix3 s r j)) = ix2 s j :=
    funext fun a => Fin.ext (by match a with | ⟨0, _⟩ => rfl | ⟨1, _⟩ => rfl)
  rw [e1, e2]
  rfl

/-- On one bit, the complement is the exclusive or with 1. -/
theorem not_bit (b : BitVec 1) : ~~~b = IntOp.xori b 1#1 := by
  rcases BitVec.eq_zero_or_eq_one b with h | h <;> subst h <;> decide

/-- The complement of "row counter + 0 equals column counter" is the complement of the diagonal bit: the counters
    are below 4096, so their 32-bit words agree exactly when the counters do. -/
theorem offdiag_word (r j : Fin 4096) :
    ~~~(IntOp.cmpi .eq (IntOp.addi (BitVec.ofNat 32 r.val) 0#32) (BitVec.ofNat 32 j.val))
      = IntOp.xori (eyeBit r j) 1#1 := by
  rw [not_bit]
  refine congrArg (fun b => IntOp.xori b 1#1) ?_
  have hc : IntOp.cmpi .eq (IntOp.addi (BitVec.ofNat 32 r.val) 0#32) (BitVec.ofNat 32 j.val)
      = BitVec.ofBool (BitVec.ofNat 32 r.val + 0#32 == BitVec.ofNat 32 j.val) := rfl
  rw [hc, BitVec.add_zero]
  unfold eyeBit
  by_cases h : j = r
  · subst h
    rw [if_pos rfl, beq_self_eq_true]
    rfl
  · have hne : BitVec.ofNat 32 r.val ≠ BitVec.ofNat 32 j.val := by
      intro hh
      apply h
      have h2 := congrArg BitVec.toNat hh
      simp only [BitVec.toNat_ofNat] at h2
      have hr := r.isLt
      have hj := j.isLt
      exact Fin.ext (by omega)
    rw [if_neg h, beq_eq_false_iff_ne.mpr hne]
    rfl

/-- The "not the diagonal" bit at (s, r, j). -/
theorem offdiag_at (s : Fin 3) (r j : Fin 4096) :
    val_main_v16 (F := Ideal) (ix3 s r j) = IntOp.xori (eyeBit r j) 1#1 := by
  rw [val_main_v16_apply, val_main_v15_apply, val_main_v14_apply, val_main_v13_apply, val_main_v12_apply,
    val_main_v9_apply, val_main_v10_apply, val_main_v11_apply, val_main_c_apply]
  have e : idx_main_v15 (idx_main_v16 (ix3 s r j)) = ix2 r j :=
    funext fun a => Fin.ext (by match a with | ⟨0, _⟩ => rfl | ⟨1, _⟩ => rfl)
  rw [e]
  exact offdiag_word r j

/-- The positive mask at (s, r, j). -/
theorem pos_at (x1 : X1) (s : Fin 3) (r j : Fin 4096) :
    val_main_v17 (F := Ideal) x1 (ix3 s r j) = posBit (lab x1) s r j := by
  rw [val_main_v17_apply, same_at, offdiag_at]
  rfl

/-- The negative mask at (s, r, j). -/
theorem neg_at (x1 : X1) (s : Fin 3) (r j : Fin 4096) :
    val_main_v18 (F := Ideal) x1 (ix3 s r j) = negBit (lab x1) s r j := by
  rw [val_main_v18_apply, same_at, not_bit]
  rfl

/-- The fill value of the negatives' maximum: the stand-in literal, at every index. -/
theorem fill0_at (i : S3x4096x4096.Idx) : val_main_call0_v2 (F := Ideal) i = lit 0xF149F2CA#32 := by
  rw [val_main_call0_v2_apply, val_main_call0_v1_apply, val_main_call0_v0_apply, val_main_cst_apply]
  rfl

/-- The fill value of the positives' maximum: the stand-in literal, at every index. -/
theorem fill1_at (i : S3x4096x4096.Idx) : val_main_call1_v2 (F := Ideal) i = lit 0xF149F2CA#32 := by
  rw [val_main_call1_v2_apply, val_main_call1_v1_apply, val_main_call1_v0_apply, val_main_cst_1_apply]
  rfl

/-- The fill value of the positives' sum: zero, at every index. -/
theorem fill2_at (i : S3x4096x4096.Idx) : val_main_call2_v2 (F := Ideal) i = lit 0x00000000#32 := by
  rw [val_main_call2_v2_apply, val_main_call2_v1_apply, val_main_call2_v0_apply, val_main_cst_5_apply]
  rfl

/-- The fill value of the negatives' sum: zero, at every index. -/
theorem fill3_at (i : S3x4096x4096.Idx) : val_main_call3_v2 (F := Ideal) i = lit 0x00000000#32 := by
  rw [val_main_call3_v2_apply, val_main_call3_v1_apply, val_main_call3_v0_apply, val_main_cst_9_apply]
  rfl

/-- The value of a row without a positive: zero, at every index. -/
theorem fill4_at (i : S3x4096.Idx) : val_main_call4_v2 (F := Ideal) i = lit 0x00000000#32 := by
  rw [val_main_call4_v2_apply, val_main_call4_v1_apply, val_main_call4_v0_apply, val_main_cst_12_apply]
  rfl

/-- The margin 0.1 broadcast over the rows (the positives' threshold). -/
theorem margin23_at (i : S3x4096.Idx) : val_main_v23 (F := Ideal) i = lit 0x3DCCCCCD#32 := by
  rw [val_main_v23_apply, val_main_cst_3_apply]
  rfl

/-- The margin 0.1 broadcast over the rows (the negatives' threshold). -/
theorem margin35_at (i : S3x4096.Idx) : val_main_v35 (F := Ideal) i = lit 0x3DCCCCCD#32 := by
  rw [val_main_v35_apply, val_main_cst_8_apply]
  rfl

/-- The floor 0.6 broadcast over the rows. -/
theorem floor33_at (i : S3x4096.Idx) : val_main_v33 (F := Ideal) i = lit 0x3F19999A#32 := by
  rw [val_main_v33_apply, val_main_cst_7_apply]
  rfl

/-- The constant 1 broadcast over all pairs. -/
theorem one29_at (i : S3x4096x4096.Idx) : val_main_v29 (F := Ideal) i = lit 0x3F800000#32 := by
  rw [val_main_v29_apply, val_main_cst_4_apply]
  rfl

/-- The row count 4096 broadcast over the subsets. -/
theorem count47_at (i : S3.Idx) : val_main_v47 (F := Ideal) i = lit 0x45800000#32 := by
  rw [val_main_v47_apply, val_main_cst_14_apply]
  rfl

end Cert.HardTriplet.Ref

end
-- ==== Proof.LibLastAxisMax.lean ====
/-
  The host's maximum over the last axis of a three-axis array, read at an index, over the extended reals.

  For an a × b × c array reduced over its last axis by the host's reduce with a maximum body, the result at (p, q)
  is the fold of max, from the initial value, over the c entries (p, q, j). Putting coordinate k back on the
  dropped last axis of the result index (p, q) gives the source index (p, q, k).
-/
import Idealize.ShloMosaic.Lib.ValueIdx
import Idealize.ShloMosaic.PureOps.Ideal.Laws
import Idealize.ShloMosaic.PureOps.Reduce

noncomputable section

namespace Idealize.ShloMosaic.LastAxisMax

open Idealize.ShloMosaic Idealize.ShloMosaic.ValueIdx

variable {a b c : Nat}

/-- Result index (p, q) with coordinate k put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis at (p, q): the fold of max over the entries (p, q, j) from the initial value. -/
theorem lastMax_host (x : FVec Ideal ⟨3, ![a, b, c]⟩ .f32) (init : (⟨0, ![]⟩ : Shape).Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (p : Fin a) (q : Fin b) :
    Host.reduce FloatOps.maximumf x init h' hu (ix2 p q)
      = (Finset.univ : Finset (Fin c)).fold max (init (Shape.Idx.first hu)) (fun j => x (ix3 p q j)) := by
  rw [Host.reduce_eq_fold_single FloatOps.maximumf x init h' h hu]
  have hf : (x ∘ h.lift (ix2 p q)) = fun k : Fin c => x (ix3 p q k) :=
    funext fun k => congrArg x (lift_last h p q k)
  exact congrArg (fun f => Finset.fold max (init (Shape.Idx.first hu)) f (Finset.univ : Finset (Fin c))) hf

end Idealize.ShloMosaic.LastAxisMax

end
-- ==== Proof.LibLastAxisOr.lean ====
/-
  The host's "or" over the last axis of a three-axis array of bits, read at an index.

  Folding "or" from the zero bit over a finite family of bits gives 1 exactly when some member is 1. For an
  a × b × c array of bits reduced over its last axis by the host's reduce with an "or" body from the zero bit,
  the result at (p, q) is therefore 1 exactly when some entry (p, q, j) is 1.
-/
import Idealize.ShloMosaic.Lib.ValueIdx
import Idealize.ShloMosaic.PureOps.Reduce
import proofs.«141028_j22084721836475_2_alg».proof.Proof.LibLastAxisMax

noncomputable section

namespace Idealize.ShloMosaic.LastAxisOr

open Idealize.ShloMosaic Idealize.ShloMosaic.ValueIdx

/-- The fold of "or" from the zero bit over a finite set is 1 exactly when some member of the family is 1. -/
theorem fold_ori_zero {ι : Type} (s : Finset ι) (f : ι → BitVec 1) :
    s.fold IntOp.ori 0#1 f = if ∃ j ∈ s, f j = 1#1 then 1#1 else 0#1 := by
  induction s using Finset.cons_induction with
  | empty => simp
  | cons a S ha ih =>
    rw [Finset.fold_cons, ih]
    by_cases hS : ∃ j ∈ S, f j = 1#1
    · have hc : ∃ j ∈ Finset.cons a S ha, f j = 1#1 := by
        obtain ⟨j, hj, e⟩ := hS
        exact ⟨j, Finset.mem_cons_of_mem hj, e⟩
      rw [if_pos hS, if_pos hc]
      rcases BitVec.eq_zero_or_eq_one (f a) with h | h <;> rw [h] <;> decide
    · rw [if_neg hS]
      rcases BitVec.eq_zero_or_eq_one (f a) with h | h
      · have hc : ¬ ∃ j ∈ Finset.cons a S ha, f j = 1#1 := by
          rintro ⟨j, hj, e⟩
          rcases Finset.mem_cons.mp hj with rfl | hj
          · rw [h] at e; exact absurd e (by decide)
          · exact hS ⟨j, hj, e⟩
        rw [if_neg hc, h]; decide
      · rw [if_pos ⟨a, Finset.mem_cons_self a S, h⟩, h]; decide

/-- The host's "or" over the last axis at (p, q), from the zero bit: 1 exactly when some entry (p, q, j) is 1. -/
theorem lastOr_host {a b c : Nat} (x : (⟨3, ![a, b, c]⟩ : Shape).Idx → BitVec 1)
    (init : (⟨0, ![]⟩ : Shape).Idx → BitVec 1)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (hinit : init (Shape.Idx.first hu) = 0#1) (p : Fin a) (q : Fin b) :
    Host.reduce IntOp.ori x init h' hu (ix2 p q) = if ∃ j : Fin c, x (ix3 p q j) = 1#1 then 1#1 else 0#1 := by
  rw [Host.reduce_eq_fold_single IntOp.ori x init h' h hu, hinit]
  have hf : (x ∘ h.lift (ix2 p q)) = fun k : Fin c => x (ix3 p q k) :=
    funext fun k => congrArg x (LastAxisMax.lift_last h p q k)
  refine (congrArg (fun f => Finset.fold IntOp.ori 0#1 f (Finset.univ : Finset (Fin c))) hf).trans ?_
  rw [fold_ori_zero]
  simp only [Finset.mem_univ, true_and]

end Idealize.ShloMosaic.LastAxisOr

end
-- ==== Proof.RefRow.lean ====
/-
  The reference's per-row quantities, read at a row (s, r).

  With the pairwise quantities read at an index, every reduction over the last axis becomes a statement about
  row r of subset s: the two maxima over the last axis are the masked maxima of the row's similarities under the
  negative and the positive mask; the "or" over the last axis of the positive mask says whether the row has a
  positive; the two sums over the last axis, started from zero, are the sums of the selected terms, with the
  thresholds maxNeg + 0.1 and max(0.6, maxPos) − 0.1 broadcast back along the row. Together they are the row's loss.
-/
import proofs.«141028_j22084721836475_2_alg».proof.Proof.RefMasks
import proofs.«141028_j22084721836475_2_alg».proof.Proof.LibLastAxisMax
import proofs.«141028_j22084721836475_2_alg».proof.Proof.LibLastAxisOr

noncomputable section

open scoped BigOperators

namespace Cert.HardTriplet.Ref

open Cert.ReferenceIdeal Cert.ReferenceIdeal.Gen Cert.ReferenceIdeal.Read Idealize.ShloMosaic
  Idealize.ShloMosaic.ValueIdx

/-- The similarities of row r of subset s. -/
abbrev simRow (x0 : X0) (s : Fin 3) (r : Fin 4096) : Fin 4096 → EReal := fun j => sim (emb x0) s r j
/-- The positive mask of row r of subset s. -/
abbrev posRow (x1 : X1) (s : Fin 3) (r : Fin 4096) : Fin 4096 → BitVec 1 := fun j => posBit (lab x1) s r j
/-- The negative mask of row r of subset s. -/
abbrev negRow (x1 : X1) (s : Fin 3) (r : Fin 4096) : Fin 4096 → BitVec 1 := fun j => negBit (lab x1) s r j

/-- Dropping the last axis of a 3 × 4096 × 4096 array leaves a 3 × 4096 array. -/
theorem reduces_last : (⟨3, ![3, 4096, 4096]⟩ : Shape).Reduces [2] (⟨2, ![3, 4096]⟩ : Shape) := by decide

/-- The largest similarity among the negatives of row (s, r). -/
theorem maxNeg_at (x0 : X0) (x1 : X1) (s : Fin 3) (r : Fin 4096) :
    val_main_v20 (F := Ideal) x0 x1 (ix2 s r) = maskedMax (simRow x0 s r) (negRow x1 s r) := by
  unfold val_main_v20
  refine (LastAxisMax.lastMax_host (val_main_v19 (F := Ideal) x0 x1) (val_main_cst_0 (F := Ideal))
    reducesTo_S3x4096x4096_S3x4096_d2 reduces_last h_S_ s r).trans ?_
  unfold maskedMax
  rw [val_main_cst_0_apply, Ideal.ofBits_def]
  refine congrArg (fun f => Finset.fold max (lit 0xFF800000#32) f (Finset.univ : Finset (Fin 4096))) ?_
  funext j
  rw [val_main_v19_apply, neg_at, sim_at, fill0_at]

/-- The largest similarity among the positives of row (s, r). -/
theorem maxPos_at (x0 : X0) (x1 : X1) (s : Fin 3) (r : Fin 4096) :
    val_main_v22 (F := Ideal) x0 x1 (ix2 s r) = maskedMax (simRow x0 s r) (posRow x1 s r) := by
  unfold val_main_v22
  refine (LastAxisMax.lastMax_host (val_main_v21 (F := Ideal) x0 x1) (val_main_cst_2 (F := Ideal))
    reducesTo_S3x4096x4096_S3x4096_d2 reduces_last h_S_ s r).trans ?_
  unfold maskedMax
  rw [val_main_cst_2_apply, Ideal.ofBits_def]
  refine congrArg (fun f => Finset.fold max (lit 0xFF800000#32) f (Finset.univ : Finset (Fin 4096))) ?_
  funext j
  rw [val_main_v21_apply, pos_at, sim_at, fill1_at]

/-- Whether row (s, r) has a positive. -/
theorem any_at (x1 : X1) (s : Fin 3) (r : Fin 4096) :
    val_main_v43 (F := Ideal) x1 (ix2 s r) = anyBit (posRow x1 s r) := by
  unfold val_main_v43
  refine (LastAxisOr.lastOr_host (val_main_v17 (F := Ideal) x1) (val_main_c_11 (F := Ideal))
    reducesTo_S3x4096x4096_S3x4096_d2 reduces_last h_S_ (val_main_c_11_apply _) s r).trans ?_
  unfold anyBit
  simp only [pos_at]
  by_cases h : ∃ j, posBit (lab x1) s r j = 1#1
  · rw [if_pos h, if_pos h]
  · rw [if_neg h, if_neg h]

/-- The positives' threshold, broadcast back along the row: maxNeg + 0.1. -/
theorem posThr_at (x0 : X0) (x1 : X1) (s : Fin 3) (r j : Fin 4096) :
    val_main_v26 (F := Ideal) x0 x1 (ix3 s r j)
      = maskedMax (simRow x0 s r) (negRow x1 s r) + lit 0x3DCCCCCD#32 := by
  rw [val_main_v26_apply, val_main_v25_apply]
  have e : idx_main_v25 (idx_main_v26 (ix3 s r j)) = ix2 s r :=
    funext fun a => Fin.ext (by match a with | ⟨0, _⟩ => rfl | ⟨1, _⟩ => rfl)
  rw [e, val_main_v24_apply, maxNeg_at, margin23_at]
  rfl

/-- The negatives' threshold, broadcast back along the row: max(0.6, maxPos) − 0.1. -/
theorem negThr_at (x0 : X0) (x1 : X1) (s : Fin 3) (r j : Fin 4096) :
    val_main_v38 (F := Ideal) x0 x1 (ix3 s r j)
      = max (lit 0x3F19999A#32) (maskedMax (simRow x0 s r) (posRow x1 s r)) - lit 0x3DCCCCCD#32 := by
  rw [val_main_v38_apply, val_main_v37_apply]
  have e : idx_main_v37 (idx_main_v38 (ix3 s r j)) = ix2 s r :=
    funext fun a => Fin.ext (by match a with | ⟨0, _⟩ => rfl | ⟨1, _⟩ => rfl)
  rw [e, val_main_v36_apply, val_main_v34_apply, floor33_at, maxPos_at, margin35_at]
  rfl

/-- The positives' term at (s, r, j): 1 − sim where j is a positive with sim below the threshold, else 0. -/
theorem posTerm_at (x0 : X0) (x1 : X1) (s : Fin 3) (r j : Fin 4096) :
    val_main_v31 (F := Ideal) x0 x1 (ix3 s r j)
      = Scalar.select
          (IntOp.andi (posRow x1 s r j) (Ideal.cmp .olt (simRow x0 s r j)
            (maskedMax (simRow x0 s r) (negRow x1 s r) + lit 0x3DCCCCCD#32)))
          (lit 0x3F800000#32 - simRow x0 s r j) (lit 0x00000000#32) := by
  rw [val_main_v31_apply, val_main_v28_apply, val_main_v27_apply, val_main_v30_apply, pos_at, sim_at, posThr_at,
    one29_at, fill2_at]
  rfl

/-- The negatives' term at (s, r, j): sim where j is a negative with sim above the threshold, else 0. -/
theorem negTerm_at (x0 : X0) (x1 : X1) (s : Fin 3) (r j : Fin 4096) :
    val_main_v41 (F := Ideal) x0 x1 (ix3 s r j)
      = Scalar.select
          (IntOp.andi (negRow x1 s r j) (Ideal.cmp .ogt (simRow x0 s r j)
            (max (lit 0x3F19999A#32) (maskedMax (simRow x0 s r) (posRow x1 s r)) - lit 0x3DCCCCCD#32)))
          (simRow x0 s r j) (lit 0x00000000#32) := by
  rw [val_main_v41_apply, val_main_v40_apply, val_main_v39_apply, neg_at, sim_at, negThr_at, fill3_at]
  rfl

/-- The positives' sum of row (s, r): the sum from zero is the sum. -/
theorem posSum_at (x0 : X0) (x1 : X1) (s : Fin 3) (r : Fin 4096) :
    val_main_v32 (F := Ideal) x0 x1 (ix2 s r)
      = ∑ j : Fin 4096, Scalar.select
          (IntOp.andi (posRow x1 s r j) (Ideal.cmp .olt (simRow x0 s r j)
            (maskedMax (simRow x0 s r) (negRow x1 s r) + lit 0x3DCCCCCD#32)))
          (lit 0x3F800000#32 - simRow x0 s r j) (lit 0x00000000#32) := by
  have hz : val_main_cst_6 (F := Ideal) (Shape.Idx.first h_S_) = 0 := by
    rw [val_main_cst_6_apply, Ideal.ofBits_def]
    exact Ideal.ofBits_zero_f32
  rw [val_main_v32_apply, hz, zero_add]
  refine Finset.sum_congr rfl fun k _ => ?_
  have e : idx_main_v32 (ix2 s r) k = ix3 s r k :=
    funext fun a => Fin.ext (by match a with | ⟨0, _⟩ => rfl | ⟨1, _⟩ => rfl | ⟨2, _⟩ => rfl)
  rw [e]
  exact posTerm_at x0 x1 s r k

/-- The negatives' sum of row (s, r): the sum from zero is the sum. -/
theorem negSum_at (x0 : X0) (x1 : X1) (s : Fin 3) (r : Fin 4096) :
    val_main_v42 (F := Ideal) x0 x1 (ix2 s r)
      = ∑ j : Fin 4096, Scalar.select
          (IntOp.andi (negRow x1 s r j) (Ideal.cmp .ogt (simRow x0 s r j)
            (max (lit 0x3F19999A#32) (maskedMax (simRow x0 s r) (posRow x1 s r)) - lit 0x3DCCCCCD#32)))
          (simRow x0 s r j) (lit 0x00000000#32) := by
  have hz : val_main_cst_10 (F := Ideal) (Shape.Idx.first h_S_) = 0 := by
    rw [val_main_cst_10_apply, Ideal.ofBits_def]
    exact Ideal.ofBits_zero_f32
  rw [val_main_v42_apply, hz, zero_add]
  refine Finset.sum_congr rfl fun k _ => ?_
  have e : idx_main_v42 (ix2 s r) k = ix3 s r k :=
    funext fun a => Fin.ext (by match a with | ⟨0, _⟩ => rfl | ⟨1, _⟩ => rfl | ⟨2, _⟩ => rfl)
  rw [e]
  exact negTerm_at x0 x1 s r k

/-- The loss of row (s, r). -/
theorem row_at (x0 : X0) (x1 : X1) (s : Fin 3) (r : Fin 4096) :
    val_main_v45 (F := Ideal) x0 x1 (ix2 s r) = lossAt (emb x0) (lab x1) s r := by
  rw [val_main_v45_apply, any_at, val_main_v44_apply, posSum_at, negSum_at, fill4_at]
  rfl

end Cert.HardTriplet.Ref

end
-- ==== Proof.RefValue.lean ====
/-
  The reference's result is the hard-mined triplet loss of the reshaped arguments.

  The last stages sum each subset's row losses from zero and divide by the row count 4096, then sum the three
  quotients from zero and divide by 3: the mean of the per-subset means of the row losses.
-/
import proofs.«141028_j22084721836475_2_alg».proof.Proof.RefRow

noncomputable section

open scoped BigOperators

namespace Cert.HardTriplet.Ref

open Cert.ReferenceIdeal Cert.ReferenceIdeal.Gen Cert.ReferenceIdeal.Read Idealize.ShloMosaic
  Idealize.ShloMosaic.ValueIdx

/-- A sum over the indices of a one-axis array is the sum over its coordinate. -/
theorem sum_idx1 {M : Type} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- The mean of subset s: its row losses summed from zero, divided by 4096. -/
theorem subsetMean_at (x0 : X0) (x1 : X1) (s : Fin 3) :
    val_main_v48 (F := Ideal) x0 x1 (ix1 s)
      = Ideal.div (lit 0x00000000#32 + ∑ r : Fin 4096, lossAt (emb x0) (lab x1) s r) (lit 0x45800000#32) := by
  rw [val_main_v48_apply, val_main_v46_apply, count47_at, val_main_cst_13_apply]
  have hs : ∑ k : Fin 4096, val_main_v45 (F := Ideal) x0 x1 (idx_main_v46 (ix1 s) k)
      = ∑ r : Fin 4096, lossAt (emb x0) (lab x1) s r := by
    refine Finset.sum_congr rfl fun k _ => ?_
    have e : idx_main_v46 (ix1 s) k = ix2 s k :=
      funext fun a => Fin.ext (by match a with | ⟨0, _⟩ => rfl | ⟨1, _⟩ => rfl)
    rw [e]
    exact row_at x0 x1 s k
  rw [hs]
  rfl

/-- The reference's result, at its one index, is the loss of the reshaped embeddings and labels. -/
theorem result_eq (x0 : (⟨Cert.ReferenceIdeal.S12288x128, .f32⟩ : BufTy).Contents (Elt Ideal))
    (x1 : (⟨Cert.ReferenceIdeal.S12288, .i32⟩ : BufTy).Contents (Elt Ideal)) :
    Cert.ReferenceIdeal.Read.val_main_v50 (F := Ideal) x0 x1
      = fun _ => Cert.HardTriplet.loss (Cert.ReferenceIdeal.Read.val_main_v0 (F := Ideal) x0)
          (Cert.ReferenceIdeal.Read.val_main_v1 (F := Ideal) x1) := by
  funext i
  rw [val_main_v50_apply, val_main_v49_apply, val_main_cst_16_apply, val_main_cst_15_apply, sum_idx1]
  have hs : ∑ a : Fin 3, val_main_v48 (F := Ideal) x0 x1 (ix1 a)
      = ∑ s : Fin 3, Ideal.div (lit 0x00000000#32 + ∑ r : Fin 4096, lossAt (emb x0) (lab x1) s r)
          (lit 0x45800000#32) :=
    Finset.sum_congr rfl fun s _ => subsetMean_at x0 x1 s
  rw [hs]
  rfl

end Cert.HardTriplet.Ref

end
-- ==== Proof.lean ====
/-
  The certificate of the hard-mined triplet loss kernel against its jnp reference.

  Both programs split the 12288 × 128 embeddings into 3 subsets of 4096 rows and, within a subset, compare every row
  with every other: the similarity of two rows is their inner product; for row r the positives are the other rows
  with r's label and the negatives the rows with a different label; with maxNeg and maxPos the largest similarity
  among negatives and among positives, the row's loss is the sum of 1 − sim over positives with sim < maxNeg + 0.1
  plus the sum of sim over negatives with sim > max(0.6, maxPos) − 0.1, and 0 for a row without positives. The kernel
  computes the 256 row losses of one query tile per grid point from a 256 × 4096 similarity block (a matrix product
  on the extended reals is the same sum of products as the reference's batched contraction), and its program then
  takes the mean over all 12288 rows at once; the reference takes the mean over the 3 subsets of each subset's mean
  over its 4096 rows. Division by a positive real distributes over sums of extended reals, so the two means agree
  with no finiteness assumption, and the claim's precondition is never opened.
  The three frames: the two kernel programs by the launch of their one region with the host operations around it
  (the embeddings array, read through two windows, held by halves), the reference by its generated run.
-/
import proofs.«141028_j22084721836475_2_alg».proof.Defs
import proofs.«141028_j22084721836475_2_alg».proof.Proof.Gen.Kernel
import proofs.«141028_j22084721836475_2_alg».proof.Proof.Gen.KernelIdeal
import proofs.«141028_j22084721836475_2_alg».proof.Proof.Gen.ReferenceIdeal
import proofs.«141028_j22084721836475_2_alg».proof.Proof.Gen.Pre_finite_inputs
import proofs.«141028_j22084721836475_2_alg».proof.Proof.BPost
import proofs.«141028_j22084721836475_2_alg».proof.Proof.KFinal
import proofs.«141028_j22084721836475_2_alg».proof.Proof.RefRunThm
import proofs.«141028_j22084721836475_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_p : Cert.frame_Kernel := fun m ρ _ => Cert.Kernel.Hand.frame m ρ

/-- So does the idealized kernel program. -/
theorem frame_pi : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end at the loss of the reshaped arguments. -/
theorem algebraic : Cert.algebraic_KernelIdeal_ReferenceIdeal := by
  intro m ρ m' ρ' _ hagree
  refine ⟨fun c => (fun _ => Cert.HardTriplet.loss (Cert.HardTriplet.Ker.embE m c) (Cert.HardTriplet.Ker.labT m c)),
    Cert.HardTriplet.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.HardTriplet.Ref.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
